-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S50000 : Shape := ⟨1, ![50000]⟩
abbrev S625000 : Shape := ⟨1, ![625000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000 : S_.BroadcastsInDim S625000 (![] : Fin 0 → Fin S625000.rank)
  reducesTo_S625000_S_d0 : S625000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_v63 main_v67

def fn_part2 {F : FTy → Type} [FloatOps F] (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x625000 32) (main_arg2 : IVec S50000 32) (main_arg3 : FVec F S625000 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000 .f32 := Host.absf main_arg3
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x625000 : Shape := ⟨2, ![2, 625000]⟩
abbrev S50000 : Shape := ⟨1, ![50000]⟩
abbrev S625000 : Shape := ⟨1, ![625000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x625000 : Shape := ⟨2, ![1, 625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S5000x128 : Shape := ⟨2, ![5000, 128]⟩
abbrev S50000x1 : Shape := ⟨2, ![50000, 1]⟩
abbrev S1x10 : Shape := ⟨2, ![1, 10]⟩

abbrev nBuf : Space → Nat
  | .hbm => 82
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S50000, .i32⟩
  | .hbm, ⟨3, _⟩ => ⟨S625000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x625000, .i32⟩
  | .hbm, ⟨18, _⟩ => ⟨S625000, .i32⟩
  | .hbm, ⟨19, _⟩ => ⟨S1x625000, .i32⟩
  | .hbm, ⟨20, _⟩ => ⟨S625000, .i32⟩
  | .hbm, ⟨21, _⟩ => ⟨S_, .i32⟩
  | .hbm, ⟨22, _⟩ => ⟨S625000, .i32⟩
  | .hbm, ⟨23, _⟩ => ⟨S625000, .i1⟩
  | .hbm, ⟨24, _⟩ => ⟨S_, .i32⟩
  | .hbm, ⟨25, _⟩ => ⟨S625000, .i32⟩
  | .hbm, ⟨26, _⟩ => ⟨S625000, .i32⟩
  | .hbm, ⟨27, _⟩ => ⟨S625000, .i32⟩
  | .hbm, ⟨28, _⟩ => ⟨S625000x1, .i32⟩
  | .hbm, ⟨29, _⟩ => ⟨S625000x128, .f32⟩
  | .hbm, ⟨30, _⟩ => ⟨S625000x1, .f32⟩
  | .hbm, ⟨31, _⟩ => ⟨S625000x128, .f32⟩
  | .hbm, ⟨32, _⟩ => ⟨S625000x128, .f32⟩
  | .hbm, ⟨33, _⟩ => ⟨S_, .f32⟩
  | .hbm, ⟨34, _⟩ => ⟨S50000x128, .f32⟩
  | .hbm, ⟨35, _⟩ => ⟨S625000x1, .i32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S625000, .i32⟩
  | .hbm, ⟨41, _⟩ => ⟨S625000, .i1⟩
  | .hbm, ⟨42, _⟩ => ⟨S_, .i32⟩
  | .hbm, ⟨43, _⟩ => ⟨S625000, .i32⟩
  | .hbm, ⟨44, _⟩ => ⟨S625000, .i32⟩
  | .hbm, ⟨45, _⟩ => ⟨S625000, .i32⟩
  | .hbm, ⟨46, _⟩ => ⟨S625000x1, .i32⟩
  | .hbm, ⟨47, _⟩ => ⟨S625000x128, .f32⟩
  | .hbm, ⟨48, _⟩ => ⟨S625000x1, .f32⟩
  | .hbm, ⟨49, _⟩ => ⟨S625000x128, .f32⟩
  | .hbm, ⟨50, _⟩ => ⟨S625000x128, .f32⟩
  | .hbm, ⟨51, _⟩ => ⟨S_, .f32⟩
  | .hbm, ⟨52, _⟩ => ⟨S50000x128, .f32⟩
  | .hbm, ⟨53, _⟩ => ⟨S625000x1, .i32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S625000, .i32⟩
  | .hbm, ⟨59, _⟩ => ⟨S625000, .i1⟩
  | .hbm, ⟨60, _⟩ => ⟨S_, .i32⟩
  | .hbm, ⟨61, _⟩ => ⟨S625000, .i32⟩
  | .hbm, ⟨62, _⟩ => ⟨S625000, .i32⟩
  | .hbm, ⟨63, _⟩ => ⟨S625000, .i32⟩
  | .hbm, ⟨64, _⟩ => ⟨S625000x1, .i32⟩
  | .hbm, ⟨65, _⟩ => ⟨S625000x128, .f32⟩
  | .hbm, ⟨66, _⟩ => ⟨S625000x1, .f32⟩
  | .hbm, ⟨67, _⟩ => ⟨S625000x128, .f32⟩
  | .hbm, ⟨68, _⟩ => ⟨S625000x128, .f32⟩
  | .hbm, ⟨69, _⟩ => ⟨S_, .f32⟩
  | .hbm, ⟨70, _⟩ => ⟨S50000x128, .f32⟩
  | .hbm, ⟨71, _⟩ => ⟨S625000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S_, .f32⟩
  | .hbm, ⟨76, _⟩ => ⟨S128x128, .f32⟩
  | .hbm, ⟨77, _⟩ => ⟨S50000x1, .i32⟩
  | .hbm, ⟨78, _⟩ => ⟨S128x128, .f32⟩
  | .hbm, ⟨79, _⟩ => ⟨S1x128, .f32⟩
  | .hbm, ⟨80, _⟩ => ⟨S1x10, .f32⟩
  | .hbm, ⟨81, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S128x10, .f32⟩
  | .local _ .vmem, ⟨31, _⟩ => ⟨S1x10, .f32⟩
  | .local _ .vmem, ⟨32, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := .none

abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S128x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S50000_S50000x1_0 : S50000.BroadcastsInDim S50000x1 (![0] : Fin 1 → Fin S50000x1.rank)
  shapeCasts_S10_S1x10 : S10.ShapeCasts S1x10
  shapeCasts_S128x128_S128x128 : S128x128.ShapeCasts S128x128
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.whole (Memref.whole main_v51) false false (stage3_0 0) (sem3_0 0) (Memref.isWhole_whole _) (hstage3_0 0)

abbrev win3_1 : Pipeline.Window sig grid3 :=
  Pipeline.Window.whole (Memref.whole main_arg13) false false (stage3_1 0) (sem3_1 0) (Memref.isWhole_whole _) (hstage3_1 0)

abbrev win3_2 : Pipeline.Window sig grid3 :=
  Pipeline.Window.whole (Memref.whole main_v52) false false (stage3_2 0) (sem3_2 0) (Memref.isWhole_whole _) (hstage3_2 0)

abbrev win3_3 : Pipeline.Window sig grid3 :=
  Pipeline.Window.whole (Memref.whole main_arg15) false false (stage3_3 0) (sem3_3 0) (Memref.isWhole_whole _) (hstage3_3 0)

abbrev win3_4 : Pipeline.Window sig grid3 :=
  Pipeline.Window.whole (Memref.whole main_v53) false false (stage3_4 0) (sem3_4 0) (Memref.isWhole_whole _) (hstage3_4 0)

abbrev win3_5 : Pipeline.Window sig grid3 :=
  Pipeline.Window.whole (Memref.whole main_v54) true false (stage3_5 0) (sem3_5 0) (Memref.isWhole_whole _) (hstage3_5 0)

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S50000 : Shape := ⟨1, ![50000]⟩
abbrev S625000 : Shape := ⟨1, ![625000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x625000 : Shape := ⟨2, ![1, 625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S50000x1 : Shape := ⟨2, ![50000, 1]⟩
abbrev S1x10 : Shape := ⟨2, ![1, 10]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S50000, .i32⟩
  | .hbm, ⟨3, _⟩ => ⟨S625000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x625000, .i32⟩
  | .hbm, ⟨18, _⟩ => ⟨S625000, .i32⟩
  | .hbm, ⟨19, _⟩ => ⟨S1x625000, .i32⟩
  | .hbm, ⟨20, _⟩ => ⟨S625000, .i32⟩
  | .hbm, ⟨21, _⟩ => ⟨S_, .i32⟩
  | .hbm, ⟨22, _⟩ => ⟨S625000, .i32⟩
  | .hbm, ⟨23, _⟩ => ⟨S625000, .i1⟩
  | .hbm, ⟨24, _⟩ => ⟨S_, .i32⟩
  | .hbm, ⟨25, _⟩ => ⟨S625000, .i32⟩
  | .hbm, ⟨26, _⟩ => ⟨S625000, .i32⟩
  | .hbm, ⟨27, _⟩ => ⟨S625000, .i32⟩
  | .hbm, ⟨28, _⟩ => ⟨S625000x1, .i32⟩
  | .hbm, ⟨29, _⟩ => ⟨S625000x128, .f32⟩
  | .hbm, ⟨30, _⟩ => ⟨S625000x1, .f32⟩
  | .hbm, ⟨31, _⟩ => ⟨S625000x128, .f32⟩
  | .hbm, ⟨32, _⟩ => ⟨S625000x128, .f32⟩
  | .hbm, ⟨33, _⟩ => ⟨S_, .f32⟩
  | .hbm, ⟨34, _⟩ => ⟨S50000x128, .f32⟩
  | .hbm, ⟨35, _⟩ => ⟨S625000x1, .i32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S625000, .i32⟩
  | .hbm, ⟨48, _⟩ => ⟨S625000, .i1⟩
  | .hbm, ⟨49, _⟩ => ⟨S_, .i32⟩
  | .hbm, ⟨50, _⟩ => ⟨S625000, .i32⟩
  | .hbm, ⟨51, _⟩ => ⟨S625000, .i32⟩
  | .hbm, ⟨52, _⟩ => ⟨S625000, .i32⟩
  | .hbm, ⟨53, _⟩ => ⟨S625000x1, .i32⟩
  | .hbm, ⟨54, _⟩ => ⟨S625000x128, .f32⟩
  | .hbm, ⟨55, _⟩ => ⟨S625000x1, .f32⟩
  | .hbm, ⟨56, _⟩ => ⟨S625000x128, .f32⟩
  | .hbm, ⟨57, _⟩ => ⟨S625000x128, .f32⟩
  | .hbm, ⟨58, _⟩ => ⟨S_, .f32⟩
  | .hbm, ⟨59, _⟩ => ⟨S50000x128, .f32⟩
  | .hbm, ⟨60, _⟩ => ⟨S625000x1, .i32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S625000, .i32⟩
  | .hbm, ⟨73, _⟩ => ⟨S625000, .i1⟩
  | .hbm, ⟨74, _⟩ => ⟨S_, .i32⟩
  | .hbm, ⟨75, _⟩ => ⟨S625000, .i32⟩
  | .hbm, ⟨76, _⟩ => ⟨S625000, .i32⟩
  | .hbm, ⟨77, _⟩ => ⟨S625000, .i32⟩
  | .hbm, ⟨78, _⟩ => ⟨S625000x1, .i32⟩
  | .hbm, ⟨79, _⟩ => ⟨S625000x128, .f32⟩
  | .hbm, ⟨80, _⟩ => ⟨S625000x1, .f32⟩
  | .hbm, ⟨81, _⟩ => ⟨S625000x128, .f32⟩
  | .hbm, ⟨82, _⟩ => ⟨S625000x128, .f32⟩
  | .hbm, ⟨83, _⟩ => ⟨S_, .f32⟩
  | .hbm, ⟨84, _⟩ => ⟨S50000x128, .f32⟩
  | .hbm, ⟨85, _⟩ => ⟨S625000x1, .i32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S128x128, .f32⟩
  | .hbm, ⟨98, _⟩ => ⟨S50000x1, .i32⟩
  | .hbm, ⟨99, _⟩ => ⟨S128x128, .f32⟩
  | .hbm, ⟨100, _⟩ => ⟨S128x128, .f32⟩
  | .hbm, ⟨101, _⟩ => ⟨S1x128, .f32⟩
  | .hbm, ⟨102, _⟩ => ⟨S128x128, .f32⟩
  | .hbm, ⟨103, _⟩ => ⟨S128x128, .f32⟩
  | .hbm, ⟨104, _⟩ => ⟨S_, .f32⟩
  | .hbm, ⟨105, _⟩ => ⟨S128x128, .f32⟩
  | .hbm, ⟨106, _⟩ => ⟨S128x128, .f32⟩
  | .hbm, ⟨107, _⟩ => ⟨S128x10, .f32⟩
  | .hbm, ⟨108, _⟩ => ⟨S1x10, .f32⟩
  | .hbm, ⟨109, _⟩ => ⟨S128x10, .f32⟩
  | .hbm, ⟨110, _⟩ => ⟨S128x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_c_4 : Ref sig .tc := ⟨.hbm, 71, rfl⟩
abbrev main_v44 : Ref sig .tc := ⟨.hbm, 72, rfl⟩
abbrev main_v45 : Ref sig .tc := ⟨.hbm, 73, rfl⟩
abbrev main_c_5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_6 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call2_cst : Ref sig .tc := ⟨.hbm, 93, rfl⟩
abbrev main_call2_v0 : Ref sig .tc := ⟨.hbm, 94, rfl⟩
abbrev main_v63 : Ref sig .tc := ⟨.hbm, 95, rfl⟩
abbrev main_cst_7 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_cst : Ref sig .tc := ⟨.hbm, 104, rfl⟩
abbrev main_call3_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KernelRun.lean ====
/-
  The idealized kernel program's run with its two results NAMED.

  The program is four kernel regions among stretches of host operations. Its run (termination of every weakly fair
  execution, no fault) is the launch theorem over the eight segments, exactly as for the frame claim; what is read off the
  final state here is more: besides the seventeen argument arrays, unchanged, the two result arrays — the logits and the
  pooled embedding — hold what the fold of buffer contents through the eight segments (`Gen.W8`) holds at their buffers.
  The later modules compute that fold at the two result buffers.
-/
import proofs.«172957_j77661598646383_1_alg».proof.Proof.KernelIdealFrameP

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in every final state the logits' buffer and the
    embedding's buffer hold the last boundary's contents at those buffers, and the arguments are as launched. -/
theorem run_named : θ_run defs (onTc (τ := τ) (main (F := F))) ⟨m, fun _ => 0, ρ⟩ (fun r => ∀ c : Dev nD,
      r.2.mem ((c.tc : Thread nD τ).loc main_v54) = W8 m ρ c (Proc.devRef .tc main_v54)
      ∧ r.2.mem ((c.tc : Thread nD τ).loc main_v51) = W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v54 (by decide)),
       h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.Named

end
-- ==== Proof.KernelHost.lean ====
import proofs.«172957_j77661598646383_1_alg».proof.Proof.KernelIdealFrameP
import Idealize.ShloMosaic.Lib.StableHlo.Run
import Idealize.ShloMosaic.PureOps.Ideal
import Idealize.ShloMosaic.PureOps.Ideal.Laws

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! # The host stretches of the kernel program, buffer by buffer

Between its four kernel regions the program gathers the rows of the node features at the edges' sources, scales them by
the edge weights and adds them up at the edges' targets (three times, once per layer), and at the end adds the node rows up
per graph. This module names those host functions and reads, at each of the eight segment boundaries, the buffers the
next segment needs as terms of the launch contents: a buffer a stretch computes is the stretch's function of earlier
buffers, a buffer nothing writes in between keeps its contents, and a region's output buffer holds what the region's
write-backs leave. -/

/-- The source node of every edge: row 0 of the edge list. -/
def srcIdx (E : (⟨S2x625000, .i32⟩ : BufTy).Contents (Elt Ideal)) : (⟨S625000, .i32⟩ : BufTy).Contents (Elt Ideal) :=
  shapeCast _ (extractStridedSlice S1x625000 ![0, 0] E slices_S2x625000_S1x625000_0_0) shapeCasts_S1x625000_S625000

/-- The target node of every edge: row 1 of the edge list. -/
def dstIdx (E : (⟨S2x625000, .i32⟩ : BufTy).Contents (Elt Ideal)) : (⟨S625000, .i32⟩ : BufTy).Contents (Elt Ideal) :=
  shapeCast _ (extractStridedSlice S1x625000 ![1, 0] E slices_S2x625000_S1x625000_1_0) shapeCasts_S1x625000_S625000

/-- The aggregated messages of one layer: gather the rows of `h` at the sources (a negative index counted from the end),
    scale row `j` by the weight of edge `j`, and add the rows up at the targets, from zero. -/
def aggOf (h : FVec Ideal S50000x128 .f32) (i1 i3 : (⟨S625000, .i32⟩ : BufTy).Contents (Elt Ideal)) (w : FVec Ideal S625000 .f32) :
    FVec Ideal S50000x128 .f32 :=
  Host.scatterAdd scatter_S50000x128_S625000x1_S625000x128_1_0_0_1
    (broadcastInDim S50000x128 ![] bcast_S_S50000x128 (constant S_ .f32 0x00000000#32))
    (broadcastInDim S625000x1 ![0] bcast_S625000_S625000x1_0 i3)
    (mulf (Host.gather gather_S50000x128_S625000x1_S625000x128_1_0_n_n_0_1_1128 h
        (broadcastInDim S625000x1 ![0] bcast_S625000_S625000x1_0
          (select (cmpi .slt i1 (broadcastInDim S625000 ![] bcast_S_S625000 (constantI S_ 32 0#32)))
            (addi i1 (broadcastInDim S625000 ![] bcast_S_S625000 (constantI S_ 32 50000#32))) i1)))
      (broadcastInDim S625000x128 ![0, 1] bcast_S625000x1_S625000x128_0_1 (broadcastInDim S625000x1 ![0] bcast_S625000_S625000x1_0 w)))

/-- The pooled embedding: the node rows added up per graph, from zero. -/
def poolOf (h : FVec Ideal S50000x128 .f32) (bt : (⟨S50000, .i32⟩ : BufTy).Contents (Elt Ideal)) : FVec Ideal S128x128 .f32 :=
  Host.scatterAdd scatter_S128x128_S50000x1_S50000x128_1_0_0_1
    (broadcastInDim S128x128 ![] bcast_S_S128x128 (constant S_ .f32 0x00000000#32))
    (broadcastInDim S50000x1 ![0] bcast_S50000_S50000x1_0 bt) h

/-! ## Before region 0 -/

theorem w1_v1 (c : Dev nD) : W1 m ρ c (Proc.devRef .tc main_v1) = srcIdx (m ((c.tc : Thread nD τ).loc main_arg1)) := by
  show StableHlo.after hostOps0 (W0 m ρ c) (Proc.devRef .tc main_v1) = _
  after_results_simp <;> rfl
theorem w1_v3 (c : Dev nD) : W1 m ρ c (Proc.devRef .tc main_v3) = dstIdx (m ((c.tc : Thread nD τ).loc main_arg1)) := by
  show StableHlo.after hostOps0 (W0 m ρ c) (Proc.devRef .tc main_v3) = _
  after_results_simp <;> rfl
theorem w1_v16 (c : Dev nD) : W1 m ρ c (Proc.devRef .tc main_v16) = aggOf (m ((c.tc : Thread nD τ).loc main_arg0)) (srcIdx (m ((c.tc : Thread nD τ).loc main_arg1))) (dstIdx (m ((c.tc : Thread nD τ).loc main_arg1))) (m ((c.tc : Thread nD τ).loc main_arg3)) := by
  show StableHlo.after hostOps0 (W0 m ρ c) (Proc.devRef .tc main_v16) = _
  after_results_simp <;> rfl
theorem w1_v17 (c : Dev nD) : W1 m ρ c (Proc.devRef .tc main_v17) = shapeCast S1x128 (m ((c.tc : Thread nD τ).loc main_arg6)) shapeCasts_S128_S1x128 := by
  show StableHlo.after hostOps0 (W0 m ρ c) (Proc.devRef .tc main_v17) = _
  after_results_simp <;> rfl
theorem w1_arg0 (c : Dev nD) : W1 m ρ c (Proc.devRef .tc main_arg0) = (m ((c.tc : Thread nD τ).loc main_arg0)) := by
  show StableHlo.after hostOps0 (W0 m ρ c) (Proc.devRef .tc main_arg0) = _
  after_results_simp <;> rfl
theorem w1_arg2 (c : Dev nD) : W1 m ρ c (Proc.devRef .tc main_arg2) = (m ((c.tc : Thread nD τ).loc main_arg2)) := by
  show StableHlo.after hostOps0 (W0 m ρ c) (Proc.devRef .tc main_arg2) = _
  after_results_simp <;> rfl
theorem w1_arg3 (c : Dev nD) : W1 m ρ c (Proc.devRef .tc main_arg3) = (m ((c.tc : Thread nD τ).loc main_arg3)) := by
  show StableHlo.after hostOps0 (W0 m ρ c) (Proc.devRef .tc main_arg3) = _
  after_results_simp <;> rfl
theorem w1_arg4 (c : Dev nD) : W1 m ρ c (Proc.devRef .tc main_arg4) = (m ((c.tc : Thread nD τ).loc main_arg4)) := by
  show StableHlo.after hostOps0 (W0 m ρ c) (Proc.devRef .tc main_arg4) = _
  after_results_simp <;> rfl
theorem w1_arg5 (c : Dev nD) : W1 m ρ c (Proc.devRef .tc main_arg5) = (m ((c.tc : Thread nD τ).loc main_arg5)) := by
  show StableHlo.after hostOps0 (W0 m ρ c) (Proc.devRef .tc main_arg5) = _
  after_results_simp <;> rfl
theorem w1_arg7 (c : Dev nD) : W1 m ρ c (Proc.devRef .tc main_arg7) = (m ((c.tc : Thread nD τ).loc main_arg7)) := by
  show StableHlo.after hostOps0 (W0 m ρ c) (Proc.devRef .tc main_arg7) = _
  after_results_simp <;> rfl
theorem w1_arg8 (c : Dev nD) : W1 m ρ c (Proc.devRef .tc main_arg8) = (m ((c.tc : Thread nD τ).loc main_arg8)) := by
  show StableHlo.after hostOps0 (W0 m ρ c) (Proc.devRef .tc main_arg8) = _
  after_results_simp <;> rfl
theorem w1_arg9 (c : Dev nD) : W1 m ρ c (Proc.devRef .tc main_arg9) = (m ((c.tc : Thread nD τ).loc main_arg9)) := by
  show StableHlo.after hostOps0 (W0 m ρ c) (Proc.devRef .tc main_arg9) = _
  after_results_simp <;> rfl
theorem w1_arg10 (c : Dev nD) : W1 m ρ c (Proc.devRef .tc main_arg10) = (m ((c.tc : Thread nD τ).loc main_arg10)) := by
  show StableHlo.after hostOps0 (W0 m ρ c) (Proc.devRef .tc main_arg10) = _
  after_results_simp <;> rfl
theorem w1_arg11 (c : Dev nD) : W1 m ρ c (Proc.devRef .tc main_arg11) = (m ((c.tc : Thread nD τ).loc main_arg11)) := by
  show StableHlo.after hostOps0 (W0 m ρ c) (Proc.devRef .tc main_arg11) = _
  after_results_simp <;> rfl
theorem w1_arg12 (c : Dev nD) : W1 m ρ c (Proc.devRef .tc main_arg12) = (m ((c.tc : Thread nD τ).loc main_arg12)) := by
  show StableHlo.after hostOps0 (W0 m ρ c) (Proc.devRef .tc main_arg12) = _
  after_results_simp <;> rfl
theorem w1_arg13 (c : Dev nD) : W1 m ρ c (Proc.devRef .tc main_arg13) = (m ((c.tc : Thread nD τ).loc main_arg13)) := by
  show StableHlo.after hostOps0 (W0 m ρ c) (Proc.devRef .tc main_arg13) = _
  after_results_simp <;> rfl
theorem w1_arg14 (c : Dev nD) : W1 m ρ c (Proc.devRef .tc main_arg14) = (m ((c.tc : Thread nD τ).loc main_arg14)) := by
  show StableHlo.after hostOps0 (W0 m ρ c) (Proc.devRef .tc main_arg14) = _
  after_results_simp <;> rfl
theorem w1_arg15 (c : Dev nD) : W1 m ρ c (Proc.devRef .tc main_arg15) = (m ((c.tc : Thread nD τ).loc main_arg15)) := by
  show StableHlo.after hostOps0 (W0 m ρ c) (Proc.devRef .tc main_arg15) = _
  after_results_simp <;> rfl
theorem w1_arg16 (c : Dev nD) : W1 m ρ c (Proc.devRef .tc main_arg16) = (m ((c.tc : Thread nD τ).loc main_arg16)) := by
  show StableHlo.after hostOps0 (W0 m ρ c) (Proc.devRef .tc main_arg16) = _
  after_results_simp <;> rfl

/-! ## After region 0 -/

theorem w2_v18 (c : Dev nD) : W2 m ρ c (Proc.devRef .tc main_v18) = (dat0 (V1 m ρ) c).arrAt 5 cfg0.N := W2_arr m ρ c 5
theorem w2_v1 (c : Dev nD) : W2 m ρ c (Proc.devRef .tc main_v1) = srcIdx (m ((c.tc : Thread nD τ).loc main_arg1)) := (W2_of_ne m ρ c main_v1 (by decide)).trans (w1_v1 m ρ c)
theorem w2_v3 (c : Dev nD) : W2 m ρ c (Proc.devRef .tc main_v3) = dstIdx (m ((c.tc : Thread nD τ).loc main_arg1)) := (W2_of_ne m ρ c main_v3 (by decide)).trans (w1_v3 m ρ c)
theorem w2_arg2 (c : Dev nD) : W2 m ρ c (Proc.devRef .tc main_arg2) = (m ((c.tc : Thread nD τ).loc main_arg2)) := (W2_of_ne m ρ c main_arg2 (by decide)).trans (w1_arg2 m ρ c)
theorem w2_arg3 (c : Dev nD) : W2 m ρ c (Proc.devRef .tc main_arg3) = (m ((c.tc : Thread nD τ).loc main_arg3)) := (W2_of_ne m ρ c main_arg3 (by decide)).trans (w1_arg3 m ρ c)
theorem w2_arg7 (c : Dev nD) : W2 m ρ c (Proc.devRef .tc main_arg7) = (m ((c.tc : Thread nD τ).loc main_arg7)) := (W2_of_ne m ρ c main_arg7 (by decide)).trans (w1_arg7 m ρ c)
theorem w2_arg8 (c : Dev nD) : W2 m ρ c (Proc.devRef .tc main_arg8) = (m ((c.tc : Thread nD τ).loc main_arg8)) := (W2_of_ne m ρ c main_arg8 (by decide)).trans (w1_arg8 m ρ c)
theorem w2_arg9 (c : Dev nD) : W2 m ρ c (Proc.devRef .tc main_arg9) = (m ((c.tc : Thread nD τ).loc main_arg9)) := (W2_of_ne m ρ c main_arg9 (by decide)).trans (w1_arg9 m ρ c)
theorem w2_arg10 (c : Dev nD) : W2 m ρ c (Proc.devRef .tc main_arg10) = (m ((c.tc : Thread nD τ).loc main_arg10)) := (W2_of_ne m ρ c main_arg10 (by decide)).trans (w1_arg10 m ρ c)
theorem w2_arg11 (c : Dev nD) : W2 m ρ c (Proc.devRef .tc main_arg11) = (m ((c.tc : Thread nD τ).loc main_arg11)) := (W2_of_ne m ρ c main_arg11 (by decide)).trans (w1_arg11 m ρ c)
theorem w2_arg12 (c : Dev nD) : W2 m ρ c (Proc.devRef .tc main_arg12) = (m ((c.tc : Thread nD τ).loc main_arg12)) := (W2_of_ne m ρ c main_arg12 (by decide)).trans (w1_arg12 m ρ c)
theorem w2_arg13 (c : Dev nD) : W2 m ρ c (Proc.devRef .tc main_arg13) = (m ((c.tc : Thread nD τ).loc main_arg13)) := (W2_of_ne m ρ c main_arg13 (by decide)).trans (w1_arg13 m ρ c)
theorem w2_arg14 (c : Dev nD) : W2 m ρ c (Proc.devRef .tc main_arg14) = (m ((c.tc : Thread nD τ).loc main_arg14)) := (W2_of_ne m ρ c main_arg14 (by decide)).trans (w1_arg14 m ρ c)
theorem w2_arg15 (c : Dev nD) : W2 m ρ c (Proc.devRef .tc main_arg15) = (m ((c.tc : Thread nD τ).loc main_arg15)) := (W2_of_ne m ρ c main_arg15 (by decide)).trans (w1_arg15 m ρ c)
theorem w2_arg16 (c : Dev nD) : W2 m ρ c (Proc.devRef .tc main_arg16) = (m ((c.tc : Thread nD τ).loc main_arg16)) := (W2_of_ne m ρ c main_arg16 (by decide)).trans (w1_arg16 m ρ c)

/-! ## Before region 1 -/

theorem w3_v31 (c : Dev nD) : W3 m ρ c (Proc.devRef .tc main_v31) = aggOf (W2 m ρ c (Proc.devRef .tc main_v18)) (srcIdx (m ((c.tc : Thread nD τ).loc main_arg1))) (dstIdx (m ((c.tc : Thread nD τ).loc main_arg1))) (m ((c.tc : Thread nD τ).loc main_arg3)) := by
  show StableHlo.after hostOps1 (W2 m ρ c) (Proc.devRef .tc main_v31) = _
  after_results_simp
  rw [w2_v1 m ρ c, w2_v3 m ρ c, w2_arg3 m ρ c] <;> rfl
theorem w3_v18 (c : Dev nD) : W3 m ρ c (Proc.devRef .tc main_v18) = W2 m ρ c (Proc.devRef .tc main_v18) := by
  show StableHlo.after hostOps1 (W2 m ρ c) (Proc.devRef .tc main_v18) = _
  after_results_simp <;> rfl
theorem w3_v32 (c : Dev nD) : W3 m ρ c (Proc.devRef .tc main_v32) = shapeCast S1x128 (m ((c.tc : Thread nD τ).loc main_arg9)) shapeCasts_S128_S1x128 := by
  show StableHlo.after hostOps1 (W2 m ρ c) (Proc.devRef .tc main_v32) = _
  after_results_simp
  rw [w2_arg9 m ρ c] <;> rfl
theorem w3_v1 (c : Dev nD) : W3 m ρ c (Proc.devRef .tc main_v1) = srcIdx (m ((c.tc : Thread nD τ).loc main_arg1)) := by
  show StableHlo.after hostOps1 (W2 m ρ c) (Proc.devRef .tc main_v1) = _
  after_results_simp
  rw [w2_v1 m ρ c] <;> rfl
theorem w3_v3 (c : Dev nD) : W3 m ρ c (Proc.devRef .tc main_v3) = dstIdx (m ((c.tc : Thread nD τ).loc main_arg1)) := by
  show StableHlo.after hostOps1 (W2 m ρ c) (Proc.devRef .tc main_v3) = _
  after_results_simp
  rw [w2_v3 m ρ c] <;> rfl
theorem w3_arg2 (c : Dev nD) : W3 m ρ c (Proc.devRef .tc main_arg2) = (m ((c.tc : Thread nD τ).loc main_arg2)) := by
  show StableHlo.after hostOps1 (W2 m ρ c) (Proc.devRef .tc main_arg2) = _
  after_results_simp
  rw [w2_arg2 m ρ c] <;> rfl
theorem w3_arg3 (c : Dev nD) : W3 m ρ c (Proc.devRef .tc main_arg3) = (m ((c.tc : Thread nD τ).loc main_arg3)) := by
  show StableHlo.after hostOps1 (W2 m ρ c) (Proc.devRef .tc main_arg3) = _
  after_results_simp
  rw [w2_arg3 m ρ c] <;> rfl
theorem w3_arg7 (c : Dev nD) : W3 m ρ c (Proc.devRef .tc main_arg7) = (m ((c.tc : Thread nD τ).loc main_arg7)) := by
  show StableHlo.after hostOps1 (W2 m ρ c) (Proc.devRef .tc main_arg7) = _
  after_results_simp
  rw [w2_arg7 m ρ c] <;> rfl
theorem w3_arg8 (c : Dev nD) : W3 m ρ c (Proc.devRef .tc main_arg8) = (m ((c.tc : Thread nD τ).loc main_arg8)) := by
  show StableHlo.after hostOps1 (W2 m ρ c) (Proc.devRef .tc main_arg8) = _
  after_results_simp
  rw [w2_arg8 m ρ c] <;> rfl
theorem w3_arg10 (c : Dev nD) : W3 m ρ c (Proc.devRef .tc main_arg10) = (m ((c.tc : Thread nD τ).loc main_arg10)) := by
  show StableHlo.after hostOps1 (W2 m ρ c) (Proc.devRef .tc main_arg10) = _
  after_results_simp
  rw [w2_arg10 m ρ c] <;> rfl
theorem w3_arg11 (c : Dev nD) : W3 m ρ c (Proc.devRef .tc main_arg11) = (m ((c.tc : Thread nD τ).loc main_arg11)) := by
  show StableHlo.after hostOps1 (W2 m ρ c) (Proc.devRef .tc main_arg11) = _
  after_results_simp
  rw [w2_arg11 m ρ c] <;> rfl
theorem w3_arg12 (c : Dev nD) : W3 m ρ c (Proc.devRef .tc main_arg12) = (m ((c.tc : Thread nD τ).loc main_arg12)) := by
  show StableHlo.after hostOps1 (W2 m ρ c) (Proc.devRef .tc main_arg12) = _
  after_results_simp
  rw [w2_arg12 m ρ c] <;> rfl
theorem w3_arg13 (c : Dev nD) : W3 m ρ c (Proc.devRef .tc main_arg13) = (m ((c.tc : Thread nD τ).loc main_arg13)) := by
  show StableHlo.after hostOps1 (W2 m ρ c) (Proc.devRef .tc main_arg13) = _
  after_results_simp
  rw [w2_arg13 m ρ c] <;> rfl
theorem w3_arg14 (c : Dev nD) : W3 m ρ c (Proc.devRef .tc main_arg14) = (m ((c.tc : Thread nD τ).loc main_arg14)) := by
  show StableHlo.after hostOps1 (W2 m ρ c) (Proc.devRef .tc main_arg14) = _
  after_results_simp
  rw [w2_arg14 m ρ c] <;> rfl
theorem w3_arg15 (c : Dev nD) : W3 m ρ c (Proc.devRef .tc main_arg15) = (m ((c.tc : Thread nD τ).loc main_arg15)) := by
  show StableHlo.after hostOps1 (W2 m ρ c) (Proc.devRef .tc main_arg15) = _
  after_results_simp
  rw [w2_arg15 m ρ c] <;> rfl
theorem w3_arg16 (c : Dev nD) : W3 m ρ c (Proc.devRef .tc main_arg16) = (m ((c.tc : Thread nD τ).loc main_arg16)) := by
  show StableHlo.after hostOps1 (W2 m ρ c) (Proc.devRef .tc main_arg16) = _
  after_results_simp
  rw [w2_arg16 m ρ c] <;> rfl

/-! ## After region 1 -/

theorem w4_v33 (c : Dev nD) : W4 m ρ c (Proc.devRef .tc main_v33) = (dat1 (V3 m ρ) c).arrAt 5 cfg1.N := W4_arr m ρ c 5
theorem w4_v1 (c : Dev nD) : W4 m ρ c (Proc.devRef .tc main_v1) = srcIdx (m ((c.tc : Thread nD τ).loc main_arg1)) := (W4_of_ne m ρ c main_v1 (by decide)).trans (w3_v1 m ρ c)
theorem w4_v3 (c : Dev nD) : W4 m ρ c (Proc.devRef .tc main_v3) = dstIdx (m ((c.tc : Thread nD τ).loc main_arg1)) := (W4_of_ne m ρ c main_v3 (by decide)).trans (w3_v3 m ρ c)
theorem w4_arg2 (c : Dev nD) : W4 m ρ c (Proc.devRef .tc main_arg2) = (m ((c.tc : Thread nD τ).loc main_arg2)) := (W4_of_ne m ρ c main_arg2 (by decide)).trans (w3_arg2 m ρ c)
theorem w4_arg3 (c : Dev nD) : W4 m ρ c (Proc.devRef .tc main_arg3) = (m ((c.tc : Thread nD τ).loc main_arg3)) := (W4_of_ne m ρ c main_arg3 (by decide)).trans (w3_arg3 m ρ c)
theorem w4_arg10 (c : Dev nD) : W4 m ρ c (Proc.devRef .tc main_arg10) = (m ((c.tc : Thread nD τ).loc main_arg10)) := (W4_of_ne m ρ c main_arg10 (by decide)).trans (w3_arg10 m ρ c)
theorem w4_arg11 (c : Dev nD) : W4 m ρ c (Proc.devRef .tc main_arg11) = (m ((c.tc : Thread nD τ).loc main_arg11)) := (W4_of_ne m ρ c main_arg11 (by decide)).trans (w3_arg11 m ρ c)
theorem w4_arg12 (c : Dev nD) : W4 m ρ c (Proc.devRef .tc main_arg12) = (m ((c.tc : Thread nD τ).loc main_arg12)) := (W4_of_ne m ρ c main_arg12 (by decide)).trans (w3_arg12 m ρ c)
theorem w4_arg13 (c : Dev nD) : W4 m ρ c (Proc.devRef .tc main_arg13) = (m ((c.tc : Thread nD τ).loc main_arg13)) := (W4_of_ne m ρ c main_arg13 (by decide)).trans (w3_arg13 m ρ c)
theorem w4_arg14 (c : Dev nD) : W4 m ρ c (Proc.devRef .tc main_arg14) = (m ((c.tc : Thread nD τ).loc main_arg14)) := (W4_of_ne m ρ c main_arg14 (by decide)).trans (w3_arg14 m ρ c)
theorem w4_arg15 (c : Dev nD) : W4 m ρ c (Proc.devRef .tc main_arg15) = (m ((c.tc : Thread nD τ).loc main_arg15)) := (W4_of_ne m ρ c main_arg15 (by decide)).trans (w3_arg15 m ρ c)
theorem w4_arg16 (c : Dev nD) : W4 m ρ c (Proc.devRef .tc main_arg16) = (m ((c.tc : Thread nD τ).loc main_arg16)) := (W4_of_ne m ρ c main_arg16 (by decide)).trans (w3_arg16 m ρ c)

/-! ## Before region 2 -/

theorem w5_v46 (c : Dev nD) : W5 m ρ c (Proc.devRef .tc main_v46) = aggOf (W4 m ρ c (Proc.devRef .tc main_v33)) (srcIdx (m ((c.tc : Thread nD τ).loc main_arg1))) (dstIdx (m ((c.tc : Thread nD τ).loc main_arg1))) (m ((c.tc : Thread nD τ).loc main_arg3)) := by
  show StableHlo.after hostOps2 (W4 m ρ c) (Proc.devRef .tc main_v46) = _
  after_results_simp
  rw [w4_v1 m ρ c, w4_v3 m ρ c, w4_arg3 m ρ c] <;> rfl
theorem w5_v33 (c : Dev nD) : W5 m ρ c (Proc.devRef .tc main_v33) = W4 m ρ c (Proc.devRef .tc main_v33) := by
  show StableHlo.after hostOps2 (W4 m ρ c) (Proc.devRef .tc main_v33) = _
  after_results_simp <;> rfl
theorem w5_v47 (c : Dev nD) : W5 m ρ c (Proc.devRef .tc main_v47) = shapeCast S1x128 (m ((c.tc : Thread nD τ).loc main_arg12)) shapeCasts_S128_S1x128 := by
  show StableHlo.after hostOps2 (W4 m ρ c) (Proc.devRef .tc main_v47) = _
  after_results_simp
  rw [w4_arg12 m ρ c] <;> rfl
theorem w5_arg2 (c : Dev nD) : W5 m ρ c (Proc.devRef .tc main_arg2) = (m ((c.tc : Thread nD τ).loc main_arg2)) := by
  show StableHlo.after hostOps2 (W4 m ρ c) (Proc.devRef .tc main_arg2) = _
  after_results_simp
  rw [w4_arg2 m ρ c] <;> rfl
theorem w5_arg10 (c : Dev nD) : W5 m ρ c (Proc.devRef .tc main_arg10) = (m ((c.tc : Thread nD τ).loc main_arg10)) := by
  show StableHlo.after hostOps2 (W4 m ρ c) (Proc.devRef .tc main_arg10) = _
  after_results_simp
  rw [w4_arg10 m ρ c] <;> rfl
theorem w5_arg11 (c : Dev nD) : W5 m ρ c (Proc.devRef .tc main_arg11) = (m ((c.tc : Thread nD τ).loc main_arg11)) := by
  show StableHlo.after hostOps2 (W4 m ρ c) (Proc.devRef .tc main_arg11) = _
  after_results_simp
  rw [w4_arg11 m ρ c] <;> rfl
theorem w5_arg13 (c : Dev nD) : W5 m ρ c (Proc.devRef .tc main_arg13) = (m ((c.tc : Thread nD τ).loc main_arg13)) := by
  show StableHlo.after hostOps2 (W4 m ρ c) (Proc.devRef .tc main_arg13) = _
  after_results_simp
  rw [w4_arg13 m ρ c] <;> rfl
theorem w5_arg14 (c : Dev nD) : W5 m ρ c (Proc.devRef .tc main_arg14) = (m ((c.tc : Thread nD τ).loc main_arg14)) := by
  show StableHlo.after hostOps2 (W4 m ρ c) (Proc.devRef .tc main_arg14) = _
  after_results_simp
  rw [w4_arg14 m ρ c] <;> rfl
theorem w5_arg15 (c : Dev nD) : W5 m ρ c (Proc.devRef .tc main_arg15) = (m ((c.tc : Thread nD τ).loc main_arg15)) := by
  show StableHlo.after hostOps2 (W4 m ρ c) (Proc.devRef .tc main_arg15) = _
  after_results_simp
  rw [w4_arg15 m ρ c] <;> rfl
theorem w5_arg16 (c : Dev nD) : W5 m ρ c (Proc.devRef .tc main_arg16) = (m ((c.tc : Thread nD τ).loc main_arg16)) := by
  show StableHlo.after hostOps2 (W4 m ρ c) (Proc.devRef .tc main_arg16) = _
  after_results_simp
  rw [w4_arg16 m ρ c] <;> rfl

/-! ## After region 2 -/

theorem w6_v48 (c : Dev nD) : W6 m ρ c (Proc.devRef .tc main_v48) = (dat2 (V5 m ρ) c).arrAt 5 cfg2.N := W6_arr m ρ c 5
theorem w6_arg2 (c : Dev nD) : W6 m ρ c (Proc.devRef .tc main_arg2) = (m ((c.tc : Thread nD τ).loc main_arg2)) := (W6_of_ne m ρ c main_arg2 (by decide)).trans (w5_arg2 m ρ c)
theorem w6_arg13 (c : Dev nD) : W6 m ρ c (Proc.devRef .tc main_arg13) = (m ((c.tc : Thread nD τ).loc main_arg13)) := (W6_of_ne m ρ c main_arg13 (by decide)).trans (w5_arg13 m ρ c)
theorem w6_arg14 (c : Dev nD) : W6 m ρ c (Proc.devRef .tc main_arg14) = (m ((c.tc : Thread nD τ).loc main_arg14)) := (W6_of_ne m ρ c main_arg14 (by decide)).trans (w5_arg14 m ρ c)
theorem w6_arg15 (c : Dev nD) : W6 m ρ c (Proc.devRef .tc main_arg15) = (m ((c.tc : Thread nD τ).loc main_arg15)) := (W6_of_ne m ρ c main_arg15 (by decide)).trans (w5_arg15 m ρ c)
theorem w6_arg16 (c : Dev nD) : W6 m ρ c (Proc.devRef .tc main_arg16) = (m ((c.tc : Thread nD τ).loc main_arg16)) := (W6_of_ne m ρ c main_arg16 (by decide)).trans (w5_arg16 m ρ c)

/-! ## Before region 3 -/

theorem w7_v51 (c : Dev nD) : W7 m ρ c (Proc.devRef .tc main_v51) = poolOf (W6 m ρ c (Proc.devRef .tc main_v48)) (m ((c.tc : Thread nD τ).loc main_arg2)) := by
  show StableHlo.after hostOps3 (W6 m ρ c) (Proc.devRef .tc main_v51) = _
  after_results_simp
  rw [w6_arg2 m ρ c] <;> rfl
theorem w7_v52 (c : Dev nD) : W7 m ρ c (Proc.devRef .tc main_v52) = shapeCast S1x128 (m ((c.tc : Thread nD τ).loc main_arg14)) shapeCasts_S128_S1x128 := by
  show StableHlo.after hostOps3 (W6 m ρ c) (Proc.devRef .tc main_v52) = _
  after_results_simp
  rw [w6_arg14 m ρ c] <;> rfl
theorem w7_v53 (c : Dev nD) : W7 m ρ c (Proc.devRef .tc main_v53) = shapeCast S1x10 (m ((c.tc : Thread nD τ).loc main_arg16)) shapeCasts_S10_S1x10 := by
  show StableHlo.after hostOps3 (W6 m ρ c) (Proc.devRef .tc main_v53) = _
  after_results_simp
  rw [w6_arg16 m ρ c] <;> rfl
theorem w7_arg13 (c : Dev nD) : W7 m ρ c (Proc.devRef .tc main_arg13) = (m ((c.tc : Thread nD τ).loc main_arg13)) := by
  show StableHlo.after hostOps3 (W6 m ρ c) (Proc.devRef .tc main_arg13) = _
  after_results_simp
  rw [w6_arg13 m ρ c] <;> rfl
theorem w7_arg15 (c : Dev nD) : W7 m ρ c (Proc.devRef .tc main_arg15) = (m ((c.tc : Thread nD τ).loc main_arg15)) := by
  show StableHlo.after hostOps3 (W6 m ρ c) (Proc.devRef .tc main_arg15) = _
  after_results_simp
  rw [w6_arg15 m ρ c] <;> rfl

/-! ## After region 3 -/

theorem w8_v54 (c : Dev nD) : W8 m ρ c (Proc.devRef .tc main_v54) = (dat3 (V7 m ρ) c).arrAt 5 cfg3.N := W8_arr m ρ c 5
theorem w8_v51 (c : Dev nD) : W8 m ρ c (Proc.devRef .tc main_v51) = W7 m ρ c (Proc.devRef .tc main_v51) :=
  (W8_arr m ρ c 0).trans (((dat3 (V7 m ρ) c).arrAt_in 0 rfl _).trans (A_eq3 (V7 m ρ) c 0))

end Cert.KernelIdeal.Host

end
-- ==== Proof.LibPlainMatmul.lean ====
/-
  A plain matrix product read at an index, at the ideal values.

  For the dimension numbers of an ordinary product of an `M × K` matrix by a `K × N` matrix (contract the left
  operand's axis 1 with the right operand's axis 0, no batch axis), the product accumulated into the zero matrix
  is, at row `r` and column `e`, the sum over `k < K` of `lhs (r, k) * rhs (k, e)` on the extended reals: no
  rounding, no chunk order, and the zero accumulator contributes `0 +`. Stated over literal-size coordinates
  (`ix2 r e`) so that it applies to a printed product by unification; a printed record of dimension numbers with
  these six lists is `DotDims.plain M K N` up to the proof of its well-formedness, which is irrelevant.
-/
import Idealize.ShloMosaic.Lib.ValueIdx
import Idealize.ShloMosaic.PureOps.Ideal.Laws

noncomputable section

namespace Idealize.ShloMosaic.PlainMatmul

open Idealize.ShloMosaic Idealize.ShloMosaic.ValueIdx

/-- The contraction shape of a plain product has one axis, of extent `K`. -/
theorem contr_rank (M K N : ℕ) : (DotDims.plain M K N).contr.rank = 1 := rfl

theorem contr_size (M K N : ℕ) : (DotDims.plain M K N).contr.size ⟨0, by rw [contr_rank]; exact Nat.one_pos⟩ = K := rfl

/-- The operands' coordinates at output index `j` and contraction index `q`: the left operand reads `j`'s row and `q`,
    the right operand `q` and `j`'s column. -/
theorem lhs_val0 (M K N : ℕ) (j : (⟨2, ![M, N]⟩ : Shape).Idx) (q : (DotDims.plain M K N).contr.Idx) :
    ((DotDims.plain M K N).lhsIdx j q 0).val = (j 0).val := rfl
theorem lhs_val1 (M K N : ℕ) (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q
theorem rhs_val0 (M K N : ℕ) (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q
theorem rhs_val1 (M K N : ℕ) (j : (⟨2, ![M, N]⟩ : Shape).Idx) (q : (DotDims.plain M K N).contr.Idx) :
    ((DotDims.plain M K N).rhsIdx j q 1).val = (j 1).val := rfl

/-- So at output `(r, e)` and contraction coordinate `k` the left operand is read at `(r, k)` and the right at `(k, e)`. -/
theorem lhsIdx_eq (M K N : ℕ) (r : Fin M) (e : Fin N) (k : Fin K) :
    (DotDims.plain M K N).lhsIdx (ix2 r e) ((contrEquiv1 (DotDims.plain M K N) K (contr_rank M K N) (contr_size M K N)).symm k) = ix2 r k := by
  have hk := contrEquiv1_symm_val (DotDims.plain M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.plain M K N).rhsIdx (ix2 r e) ((contrEquiv1 (DotDims.plain M K N) K (contr_rank M K N) (contr_size M K N)).symm k) = ix2 k e := by
  have hk := contrEquiv1_symm_val (DotDims.plain M K N) K (contr_rank M K N) (contr_size M K N) k
  funext a
  refine Fin.ext ?_
  match a with
  | ⟨0, _⟩ => exact (rhs_val0 M K N _ _).trans hk
  | ⟨1, _⟩ => exact rhs_val1 M K N _ _

/-- A plain product into the zero matrix, at `(r, e)`: the sum over the inner axis of the operands' products. -/
theorem matmul_zero_apply (M K N : ℕ) (prec : Option ContractPrecision)
    (lhs : FVec Ideal ⟨2, ![M, K]⟩ .f32) (rhs : FVec Ideal ⟨2, ![K, N]⟩ .f32) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibPlainMatmulFmt.lean ====
/-
  A plain matrix product read at an index, for operands of any float formats.

  At the ideal values every float format is the extended reals, so the product of an `M × K` matrix by a `K × N`
  matrix accumulated into the zero matrix is, at row `r` and column `e`, the sum over `k < K` of
  `lhs (r, k) * rhs (k, e)` whatever formats label the two operands (a kernel that narrows its operands to a
  16-bit format before the product is read by this form).
-/
import proofs.«172957_j77661598646383_1_alg».proof.Proof.LibPlainMatmul

noncomputable section

namespace Idealize.ShloMosaic.PlainMatmul

open Idealize.ShloMosaic Idealize.ShloMosaic.ValueIdx

/-- A plain product of operands of formats `φ₁`, `φ₂` into the zero matrix, at `(r, e)`: the sum over the inner axis
    of the operands' products. -/
theorem matmul_zero_apply_fmt {φ₁ φ₂ : FTy} (M K N : ℕ) (prec : Option ContractPrecision)
    (lhs : FVec Ideal ⟨2, ![M, K]⟩ φ₁) (rhs : FVec Ideal ⟨2, ![K, N]⟩ φ₂) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.ConvBody.lean ====
/-
  The arithmetic of one row block of a graph-convolution layer, read entry by entry over the extended reals.

  Each of the three convolution bodies takes a block of 5000 rows of the aggregated messages and of the node
  features, the two 128 x 128 weight matrices and the bias row, narrows the four matrices to a 16-bit format (the
  identity on the extended reals), forms the two products into zero accumulators, adds them, adds the bias row
  broadcast down the block, and takes the maximum with zero. At row `r` and channel `e` of the block that is
      max ( (sum_k a(r,k) * wrel(k,e) + sum_k x(r,k) * wroot(k,e)) + b(0,e) , 0 ),
  the zero kept as the word it is printed with. The second and third bodies differ from the first only by a cast
  of the feature block to its own shape, which changes nothing.
-/
import proofs.«172957_j77661598646383_1_alg».proof.Proof.Gen.KernelIdeal.Skeleton
import proofs.«172957_j77661598646383_1_alg».proof.Proof.LibPlainMatmulFmt
import Idealize.ShloMosaic.Lib.ValueLayout

noncomputable section

namespace Cert.KernelIdeal.ConvBody

open Idealize.ShloMosaic Idealize.ShloMosaic.ValueIdx Idealize.ShloMosaic.PlainMatmul
open Cert.KernelIdeal Cert.KernelIdeal.Gen

/-- The printed dimension numbers of the two products are those of an ordinary 5000 x 128 by 128 x 128 product. -/
theorem dims_plain : dot_S5000x128_S128x128_S5000x128_1_0_0_1_n_n = DotDims.plain 5000 128 128 := rfl

/-- What all three bodies compute from a block of messages `a`, a block of features `x`, the weights and the bias
    row, once the casts to the same shape are gone. -/
def conv (a x : FVec Ideal S5000x128 .f32) (wrel wroot : FVec Ideal S128x128 .f32) (b : FVec Ideal S1x128 .f32) :
    FVec Ideal S5000x128 .f32 :=
  maximumf
    (addf
      (addf
        (matmul dot_S5000x128_S128x128_S5000x128_1_0_0_1_n_n none (truncf .bf16 a bitsLt_bf16_f32)
          (truncf .bf16 wrel bitsLt_bf16_f32) (constant (F := Ideal) S5000x128 .f32 0x00000000#32))
        (matmul dot_S5000x128_S128x128_S5000x128_1_0_0_1_n_n none (truncf .bf16 x bitsLt_bf16_f32)
          (truncf .bf16 wroot bitsLt_bf16_f32) (constant (F := Ideal) S5000x128 .f32 0x00000000#32)))
      (broadcastTo S5000x128 b broadcasts_S1x128_S5000x128))
    (broadcast S5000x128 (Scalar.ofBits (F := Ideal) .f32 0x00000000#32))

/-- One narrowed product at `(r, e)`: the sum over the inner axis of the operands' products. -/
theorem product_apply (a : FVec Ideal S5000x128 .f32) (w : FVec Ideal S128x128 .f32) (r : Fin 5000) (e : Fin 128) :
    matmul dot_S5000x128_S128x128_S5000x128_1_0_0_1_n_n none (truncf .bf16 a bitsLt_bf16_f32)
        (truncf .bf16 w bitsLt_bf16_f32) (constant (F := Ideal) S5000x128 .f32 0x00000000#32) (ix2 r e)
      = ∑ k : Fin 128, a (ix2 r k) * w (ix2 k e) := by
  rw [dims_plain]
  exact matmul_zero_apply_fmt 5000 128 128 none (truncf .bf16 a bitsLt_bf16_f32) (truncf .bf16 w bitsLt_bf16_f32) r e

/-- The common term at row `r`, channel `e`. -/
theorem conv_apply (a x : FVec Ideal S5000x128 .f32) (wrel wroot : FVec Ideal S128x128 .f32) (b : FVec Ideal S1x128 .f32)
    (r : Fin 5000) (e : Fin 128) :
    conv a x wrel wroot b (ix2 r e)
      = max ((∑ k : Fin 128, a (ix2 r k) * wrel (ix2 k e) + ∑ k : Fin 128, x (ix2 r k) * wroot (ix2 k e))
          + b (ix2 (0 : Fin 1) e)) (Ideal.ofBits .f32 0x00000000#32) := by
  unfold conv
  rw [maximumf_apply, addf_apply, addf_apply, product_apply, product_apply, broadcast_apply,
    broadcastTo_1b_ab_apply b broadcasts_S1x128_S5000x128 r e]
  rfl

/-- The first region's body is the common term. -/
theorem pay0_eq (x0 x1 : Vec Ideal S5000x128 .f32) (x2 x3 : Vec Ideal S128x128 .f32) (x4 : Vec Ideal S1x128 .f32) :
    Gen.k0_pay1 (F := Ideal) x0 x1 x2 x3 x4 = conv x0 x1 x2 x3 x4 := by
  unfold Gen.k0_pay1 conv
  rw [shapeCast_self, shapeCast_self]

/-- The second region's body is the common term. -/
theorem pay1_eq (x0 x1 : Vec Ideal S5000x128 .f32) (x2 x3 : Vec Ideal S128x128 .f32) (x4 : Vec Ideal S1x128 .f32) :
    Gen.k1_pay1 (F := Ideal) x0 x1 x2 x3 x4 = conv x0 x1 x2 x3 x4 := by
  unfold Gen.k1_pay1 conv
  rw [shapeCast_self, shapeCast_self, shapeCast_self]

/-- The third region's body is the common term. -/
theorem pay2_eq (x0 x1 : Vec Ideal S5000x128 .f32) (x2 x3 : Vec Ideal S128x128 .f32) (x4 : Vec Ideal S1x128 .f32) :
    Gen.k2_pay1 (F := Ideal) x0 x1 x2 x3 x4 = conv x0 x1 x2 x3 x4 := by
  unfold Gen.k2_pay1 conv
  rw [shapeCast_self, shapeCast_self, shapeCast_self]

/-- The first region's body at row `r`, channel `e` of its block. -/
theorem pay0_apply (x0 x1 : Vec Ideal S5000x128 .f32) (x2 x3 : Vec Ideal S128x128 .f32) (x4 : Vec Ideal S1x128 .f32)
    (r : Fin 5000) (e : Fin 128) :
    Gen.k0_pay1 (F := Ideal) x0 x1 x2 x3 x4 (ix2 r e)
      = max ((∑ k : Fin 128, x0 (ix2 r k) * x2 (ix2 k e) + ∑ k : Fin 128, x1 (ix2 r k) * x3 (ix2 k e))
          + x4 (ix2 (0 : Fin 1) e)) (Ideal.ofBits .f32 0x00000000#32) := by
  rw [pay0_eq]; exact conv_apply x0 x1 x2 x3 x4 r e

/-- The second region's body at row `r`, channel `e` of its block. -/
theorem pay1_apply (x0 x1 : Vec Ideal S5000x128 .f32) (x2 x3 : Vec Ideal S128x128 .f32) (x4 : Vec Ideal S1x128 .f32)
    (r : Fin 5000) (e : Fin 128) :
    Gen.k1_pay1 (F := Ideal) x0 x1 x2 x3 x4 (ix2 r e)
      = max ((∑ k : Fin 128, x0 (ix2 r k) * x2 (ix2 k e) + ∑ k : Fin 128, x1 (ix2 r k) * x3 (ix2 k e))
          + x4 (ix2 (0 : Fin 1) e)) (Ideal.ofBits .f32 0x00000000#32) := by
  rw [pay1_eq]; exact conv_apply x0 x1 x2 x3 x4 r e

/-- The third region's body at row `r`, channel `e` of its block. -/
theorem pay2_apply (x0 x1 : Vec Ideal S5000x128 .f32) (x2 x3 : Vec Ideal S128x128 .f32) (x4 : Vec Ideal S1x128 .f32)
    (r : Fin 5000) (e : Fin 128) :
    Gen.k2_pay1 (F := Ideal) x0 x1 x2 x3 x4 (ix2 r e)
      = max ((∑ k : Fin 128, x0 (ix2 r k) * x2 (ix2 k e) + ∑ k : Fin 128, x1 (ix2 r k) * x3 (ix2 k e))
          + x4 (ix2 (0 : Fin 1) e)) (Ideal.ofBits .f32 0x00000000#32) := by
  rw [pay2_eq]; exact conv_apply x0 x1 x2 x3 x4 r e

end Cert.KernelIdeal.ConvBody

end
-- ==== Proof.Spec.lean ====
/-
  The two pointwise-in-the-row functions this network is made of, over the extended reals, index by index.

  A graph-convolution layer takes the aggregated messages `agg` and the node features `x` (both 50000 x 128),
  two 128 x 128 weight matrices and a bias row, and returns, at node `r` and channel `e`,
      max ( (sum_k agg(r,k) * wrel(k,e)  +  sum_k x(r,k) * wroot(k,e))  +  b(0,e) ,  0 ).
  The classifier head takes the pooled embedding (128 x 128), a hidden layer and an output layer and returns, at
  graph `r` and class `e`,
      sum_k max( sum_j emb(r,j) * w1(j,k) + b1(0,k) , 0 ) * w2(k,e)  +  b2(0,e).
  Both are stated over literal extents, with the biases as one-row matrices; the zero against which the maximum is
  taken is kept as the word it is printed with, so it is never evaluated.
-/
import Idealize.ShloMosaic.Lib.ValueIdx
import Idealize.ShloMosaic.PureOps.Ideal

noncomputable section

namespace Cert.Gcn

open Idealize.ShloMosaic Idealize.ShloMosaic.ValueIdx

/-- A bias vector as the one-row matrix the layers add: row 0, column `e` is entry `e`. -/
def row128 (b : FVec Ideal ⟨1, ![128]⟩ .f32) : FVec Ideal ⟨2, ![1, 128]⟩ .f32 :=
  fun j => b (ix1 ⟨(j 1).val, (j 1).isLt⟩)

/-- The same for the ten output classes. -/
def row10 (b : FVec Ideal ⟨1, ![10]⟩ .f32) : FVec Ideal ⟨2, ![1, 10]⟩ .f32 :=
  fun j => b (ix1 ⟨(j 1).val, (j 1).isLt⟩)

/-- One graph-convolution layer at node `r`, channel `e`. -/
def layerAt (agg x : FVec Ideal ⟨2, ![50000, 128]⟩ .f32) (wrel wroot : FVec Ideal ⟨2, ![128, 128]⟩ .f32)
    (b : FVec Ideal ⟨2, ![1, 128]⟩ .f32) (r : Fin 50000) (e : Fin 128) : Ideal .f32 :=
  max ((∑ k : Fin 128, agg (ix2 r k) * wrel (ix2 k e) + ∑ k : Fin 128, x (ix2 r k) * wroot (ix2 k e))
        + b (ix2 (0 : Fin 1) e)) (Ideal.ofBits .f32 0x00000000#32)

/-- One graph-convolution layer as an array. -/
def layer (agg x : FVec Ideal ⟨2, ![50000, 128]⟩ .f32) (wrel wroot : FVec Ideal ⟨2, ![128, 128]⟩ .f32)
    (b : FVec Ideal ⟨2, ![1, 128]⟩ .f32) : FVec Ideal ⟨2, ![50000, 128]⟩ .f32 :=
  fun i => layerAt agg x wrel wroot b ⟨(i 0).val, (i 0).isLt⟩ ⟨(i 1).val, (i 1).isLt⟩

theorem layer_apply (agg x : FVec Ideal ⟨2, ![50000, 128]⟩ .f32) (wrel wroot : FVec Ideal ⟨2, ![128, 128]⟩ .f32)
    (b : FVec Ideal ⟨2, ![1, 128]⟩ .f32) (r : Fin 50000) (e : Fin 128) :
    layer agg x wrel wroot b (ix2 r e) = layerAt agg x wrel wroot b r e := rfl

/-- The hidden layer of the classifier head at graph `r`, hidden unit `k`. -/
def hiddenAt (emb w1 : FVec Ideal ⟨2, ![128, 128]⟩ .f32) (b1 : FVec Ideal ⟨2, ![1, 128]⟩ .f32) (r k : Fin 128) : Ideal .f32 :=
  max (∑ j : Fin 128, emb (ix2 r j) * w1 (ix2 j k) + b1 (ix2 (0 : Fin 1) k)) (Ideal.ofBits .f32 0x00000000#32)

/-- The classifier head at graph `r`, class `e`. -/
def mlpAt (emb w1 : FVec Ideal ⟨2, ![128, 128]⟩ .f32) (b1 : FVec Ideal ⟨2, ![1, 128]⟩ .f32)
    (w2 : FVec Ideal ⟨2, ![128, 10]⟩ .f32) (b2 : FVec Ideal ⟨2, ![1, 10]⟩ .f32) (r : Fin 128) (e : Fin 10) : Ideal .f32 :=
  ∑ k : Fin 128, hiddenAt emb w1 b1 r k * w2 (ix2 k e) + b2 (ix2 (0 : Fin 1) e)

/-- The classifier head as an array. -/
def mlp (emb w1 : FVec Ideal ⟨2, ![128, 128]⟩ .f32) (b1 : FVec Ideal ⟨2, ![1, 128]⟩ .f32)
    (w2 : FVec Ideal ⟨2, ![128, 10]⟩ .f32) (b2 : FVec Ideal ⟨2, ![1, 10]⟩ .f32) : FVec Ideal ⟨2, ![128, 10]⟩ .f32 :=
  fun i => mlpAt emb w1 b1 w2 b2 ⟨(i 0).val, (i 0).isLt⟩ ⟨(i 1).val, (i 1).isLt⟩

theorem mlp_apply (emb w1 : FVec Ideal ⟨2, ![128, 128]⟩ .f32) (b1 : FVec Ideal ⟨2, ![1, 128]⟩ .f32)
    (w2 : FVec Ideal ⟨2, ![128, 10]⟩ .f32) (b2 : FVec Ideal ⟨2, ![1, 10]⟩ .f32) (r : Fin 128) (e : Fin 10) :
    mlp emb w1 b1 w2 b2 (ix2 r e) = mlpAt emb w1 b1 w2 b2 r e := rfl

end Cert.Gcn

end
-- ==== Proof.ConvRegion0.lean ====
/-
  The first graph-convolution layer's output array, row block by row block.

  The layer's result is computed in ten steps, one per block of 5000 consecutive rows: at step `t` the body reads
  rows `5000 t … 5000 t + 4999` of the aggregated messages and of the node features, all of both weight matrices
  and the bias row, and writes the same rows of the result. Entry `(R, e)` of the layer depends only on row `R` of
  the messages and of the features, so each written block is the corresponding block of ONE function of the whole
  arrays, `Cert.Gcn.layer`; the ten blocks fill the 50000 rows (row `R` lies in block `R / 5000`), so the array
  after the ten steps is that function of the arrays as they stand on entry. Those entry contents `V` are arbitrary
  here: nothing is assumed of them and they are never opened.
-/
import proofs.«172957_j77661598646383_1_alg».proof.Proof.KernelIdealFrameP
import proofs.«172957_j77661598646383_1_alg».proof.Proof.ConvBody
import proofs.«172957_j77661598646383_1_alg».proof.Proof.Spec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.ConvRegion0

open Cert.KernelIdeal Cert.KernelIdeal.Gen

variable (V : (c : Dev nD) → (b : Ref sig .tc) → Buf (Elt Ideal) ((c : Thread nD τ).loc b))

/-- The body reads and writes its staging copies from their first entry: zero offsets on both axes. -/
theorem hz : (![0, 0] : Fin 2 → Nat) = fun _ => 0 := funext fun a => by fin_cases a <;> rfl

/-- The printed index maps, decided over the ten points: at point `t` the messages, the features and the result
    are at row block `t`; the weights and the bias row are at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has ten points. -/
theorem N_eq : cfg0.N = 10 := by decide

/-- Row `r` of the messages' block at point `t` is row `5000 t + r` of the array. -/
theorem msg_apply (c : Dev nD) (t : Fin cfg0.N) (r : Fin 5000) (k : Fin 128) (R : Fin 50000)
    (hR : R.val = 5000 * t.val + r.val) :
    (Gen.iblk0 V c 0 t : Vec Ideal S5000x128 .f32) (ix2 r k) = (V c main_v16 : S50000x128.Idx → Ideal .f32) (ix2 R k) := by
  obtain ⟨e0, e1, -⟩ := idx_facts t
  unfold Gen.iblk0
  rw [View.read_apply]
  show V c main_v16 _ = V c main_v16 _
  refine congrArg _ (funext fun a => Fin.ext ?_)
  match a with
  | ⟨0, _⟩ => show win0_0.index t (0 : Fin 2) * 5000 + 1 * r.val = R.val; rw [e0, hR]; omega
  | ⟨1, _⟩ => show win0_0.index t (1 : Fin 2) * 128 + 1 * k.val = k.val; rw [e1]; omega

/-- Row `r` of the features' block at point `t` is row `5000 t + r` of the array. -/
theorem feat_apply (c : Dev nD) (t : Fin cfg0.N) (r : Fin 5000) (k : Fin 128) (R : Fin 50000)
    (hR : R.val = 5000 * t.val + r.val) :
    (Gen.iblk0 V c 1 t : Vec Ideal S5000x128 .f32) (ix2 r k) = (V c main_arg0 : S50000x128.Idx → Ideal .f32) (ix2 R k) := by
  obtain ⟨-, -, e0, e1, -⟩ := idx_facts t
  unfold Gen.iblk0
  rw [View.read_apply]
  show V c main_arg0 _ = V c main_arg0 _
  refine congrArg _ (funext fun a => Fin.ext ?_)
  match a with
  | ⟨0, _⟩ => show win0_1.index t (0 : Fin 2) * 5000 + 1 * r.val = R.val; rw [e0, hR]; omega
  | ⟨1, _⟩ => show win0_1.index t (1 : Fin 2) * 128 + 1 * k.val = k.val; rw [e1]; omega

/-- The first weight matrix's block is the whole matrix at every point. -/
theorem wrel_apply (c : Dev nD) (t : Fin cfg0.N) (k e : Fin 128) :
    (Gen.iblk0 V c 2 t : Vec Ideal S128x128 .f32) (ix2 k e) = (V c main_arg4 : S128x128.Idx → Ideal .f32) (ix2 k e) := by
  obtain ⟨-, -, -, -, e0, e1, -⟩ := idx_facts t
  unfold Gen.iblk0
  rw [View.read_apply]
  show V c main_arg4 _ = V c main_arg4 _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * e.val = e.val; rw [e1]; omega

/-- The second weight matrix's block is the whole matrix at every point. -/
theorem wroot_apply (c : Dev nD) (t : Fin cfg0.N) (k e : Fin 128) :
    (Gen.iblk0 V c 3 t : Vec Ideal S128x128 .f32) (ix2 k e) = (V c main_arg5 : S128x128.Idx → Ideal .f32) (ix2 k e) := by
  obtain ⟨-, -, -, -, -, -, e0, e1, -⟩ := idx_facts t
  unfold Gen.iblk0
  rw [View.read_apply]
  show V c main_arg5 _ = V c main_arg5 _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * e.val = e.val; rw [e1]; omega

/-- The bias row's block is the whole row at every point. -/
theorem bias_apply (c : Dev nD) (t : Fin cfg0.N) (u : Fin 1) (e : Fin 128) :
    (Gen.iblk0 V c 4 t : Vec Ideal S1x128 .f32) (ix2 u e) = (V c main_v17 : S1x128.Idx → Ideal .f32) (ix2 u e) := by
  obtain ⟨-, -, -, -, -, -, -, -, e0, e1, -⟩ := idx_facts t
  unfold Gen.iblk0
  rw [View.read_apply]
  show V c main_v17 _ = V c main_v17 _
  refine congrArg _ (funext fun a => Fin.ext ?_)
  match a with
  | ⟨0, _⟩ => show win0_4.index t (0 : Fin 2) * 1 + 1 * u.val = u.val; rw [e0]; omega
  | ⟨1, _⟩ => show win0_4.index t (1 : Fin 2) * 128 + 1 * e.val = e.val; rw [e1]; omega

/-- Entry `(r, e)` of the result's block at point `t` sits at row `5000 t + r`, channel `e` of the array. -/
theorem out_emb (t : Fin cfg0.N) (r : Fin 5000) (e : Fin 128) (R : Fin 50000) (hR : R.val = 5000 * t.val + r.val) :
    ((cfg0.win 5).blk t).view.emb (ix2 r e) = (ix2 R e : S50000x128.Idx) := by
  obtain ⟨-, -, -, -, -, -, -, -, -, -, e0, e1⟩ := idx_facts t
  refine funext fun a => Fin.ext ?_
  match a with
  | ⟨0, _⟩ => show win0_5.index t (0 : Fin 2) * 5000 + 1 * r.val = R.val; rw [e0, hR]; omega
  | ⟨1, _⟩ => show win0_5.index t (1 : Fin 2) * 128 + 1 * e.val = e.val; rw [e1]; omega

/-- What step `t` writes back is row block `t` of the layer of the arrays as they stand on entry. -/
theorem flushed_eq (c : Dev nD) (t : Fin cfg0.N) :
    (Gen.dat0 (F := Ideal) V c).flushed 5 t
      = ((cfg0.win 5).blk t).view.read (Elt Ideal)
          (Cert.Gcn.layer (V c main_v16) (V c main_arg0) (V c main_arg4) (V c main_arg5) (V c main_v17)) := by
  show (cfg0.win 5).cut (grid0.coords t) ((Gen.dat0 (F := Ideal) V c).after 5 t) = _
  rw [Gen.after0_5]
  unfold Gen.out0_5
  rw [View.canon_unit_zero hz]
  simp only [View.ld_unit_zero (S := S5000x128) hz, View.ld_unit_zero (S := S128x128) hz, View.ld_unit_zero (S := S1x128) hz]
  funext j
  revert j
  show ∀ j : S5000x128.Idx,
    Gen.k0_pay1 (F := Ideal) (Gen.iblk0 V c 0 t) (Gen.iblk0 V c 1 t) (Gen.iblk0 V c 2 t) (Gen.iblk0 V c 3 t) (Gen.iblk0 V c 4 t) j
      = Cert.Gcn.layer (V c main_v16) (V c main_arg0) (V c main_arg4) (V c main_arg5) (V c main_v17)
          (((cfg0.win 5).blk t).view.emb j)
  intro j
  obtain ⟨r, e, rfl⟩ : ∃ (r : Fin 5000) (e : Fin 128), j = ix2 r e := ⟨j 0, j 1, eq_ix2 j⟩
  have hR : 5000 * t.val + r.val < 50000 := by
    have ht : t.val < cfg0.N := t.isLt
    have hN : cfg0.N = 10 := N_eq
    omega
  rw [out_emb t r e ⟨_, hR⟩ rfl, Cert.Gcn.layer_apply]
  refine (ConvBody.pay0_apply (Gen.iblk0 V c 0 t) (Gen.iblk0 V c 1 t) (Gen.iblk0 V c 2 t) (Gen.iblk0 V c 3 t)
    (Gen.iblk0 V c 4 t) r e).trans ?_
  unfold Cert.Gcn.layerAt
  refine congrArg₂ max (congrArg₂ (· + ·) (congrArg₂ (· + ·) (Finset.sum_congr rfl fun k _ => ?_)
    (Finset.sum_congr rfl fun k _ => ?_)) ?_) rfl
  · rw [msg_apply V c t r k ⟨_, hR⟩ rfl, wrel_apply V c t k e]
  · rw [feat_apply V c t r k ⟨_, hR⟩ rfl, wroot_apply V c t k e]
  · exact bias_apply V c t 0 e

/-- An index of the array is in point `t`'s block iff each coordinate is in the block's range on its axis. -/
theorem mem_blk (t : Fin cfg0.N) (i : S50000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- The ten row blocks fill the array: row `i` is in the block of point `i / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [N_eq]; omega⟩
  obtain ⟨-, -, -, -, -, -, -, -, -, -, e0, e1⟩ := idx_facts t
  have ht : t.val = (i 0).val / 5000 := rfl
  refine ⟨t, Gen.flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- The first convolution's output array after its ten steps is the layer of the arrays as they stand on entry. -/
theorem arr_eq (c : Dev nD) :
    (Gen.dat0 (F := Ideal) V c).arrAt 5 cfg0.N
      = Cert.Gcn.layer (V c main_v16) (V c main_arg0) (V c main_arg4) (V c main_arg5) (V c main_v17) :=
  (Gen.dat0 (F := Ideal) V c).arrAt_eq_of_cover 5 _ (fun t _ => flushed_eq V c t) cover

end Cert.KernelIdeal.ConvRegion0

end
-- ==== Proof.ConvRegion1.lean ====
/-
  The second graph-convolution layer's output array, row block by row block.

  The layer's result is computed in ten steps, one per block of 5000 consecutive rows: at step `t` the body reads
  rows `5000 t … 5000 t + 4999` of the aggregated messages and of the node features, all of both weight matrices
  and the bias row, and writes the same rows of the result. Entry `(R, e)` of the layer depends only on row `R` of
  the messages and of the features, so each written block is the corresponding block of ONE function of the whole
  arrays, `Cert.Gcn.layer`; the ten blocks fill the 50000 rows (row `R` lies in block `R / 5000`), so the array
  after the ten steps is that function of the arrays as they stand on entry. Those entry contents `V` are arbitrary
  here: nothing is assumed of them and they are never opened.
-/
import proofs.«172957_j77661598646383_1_alg».proof.Proof.KernelIdealFrameP
import proofs.«172957_j77661598646383_1_alg».proof.Proof.ConvBody
import proofs.«172957_j77661598646383_1_alg».proof.Proof.Spec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.ConvRegion1

open Cert.KernelIdeal Cert.KernelIdeal.Gen

variable (V : (c : Dev nD) → (b : Ref sig .tc) → Buf (Elt Ideal) ((c : Thread nD τ).loc b))

/-- The body reads and writes its staging copies from their first entry: zero offsets on both axes. -/
theorem hz : (![0, 0] : Fin 2 → Nat) = fun _ => 0 := funext fun a => by fin_cases a <;> rfl

/-- The printed index maps, decided over the ten points: at point `t` the messages, the features and the result
    are at row block `t`; the weights and the bias row are at block 0 throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has ten points. -/
theorem N_eq : cfg1.N = 10 := by decide

/-- Row `r` of the messages' block at point `t` is row `5000 t + r` of the array. -/
theorem msg_apply (c : Dev nD) (t : Fin cfg1.N) (r : Fin 5000) (k : Fin 128) (R : Fin 50000)
    (hR : R.val = 5000 * t.val + r.val) :
    (Gen.iblk1 V c 0 t : Vec Ideal S5000x128 .f32) (ix2 r k) = (V c main_v31 : S50000x128.Idx → Ideal .f32) (ix2 R k) := by
  obtain ⟨e0, e1, -⟩ := idx_facts t
  unfold Gen.iblk1
  rw [View.read_apply]
  show V c main_v31 _ = V c main_v31 _
  refine congrArg _ (funext fun a => Fin.ext ?_)
  match a with
  | ⟨0, _⟩ => show win1_0.index t (0 : Fin 2) * 5000 + 1 * r.val = R.val; rw [e0, hR]; omega
  | ⟨1, _⟩ => show win1_0.index t (1 : Fin 2) * 128 + 1 * k.val = k.val; rw [e1]; omega

/-- Row `r` of the features' block at point `t` is row `5000 t + r` of the array. -/
theorem feat_apply (c : Dev nD) (t : Fin cfg1.N) (r : Fin 5000) (k : Fin 128) (R : Fin 50000)
    (hR : R.val = 5000 * t.val + r.val) :
    (Gen.iblk1 V c 1 t : Vec Ideal S5000x128 .f32) (ix2 r k) = (V c main_v18 : S50000x128.Idx → Ideal .f32) (ix2 R k) := by
  obtain ⟨-, -, e0, e1, -⟩ := idx_facts t
  unfold Gen.iblk1
  rw [View.read_apply]
  show V c main_v18 _ = V c main_v18 _
  refine congrArg _ (funext fun a => Fin.ext ?_)
  match a with
  | ⟨0, _⟩ => show win1_1.index t (0 : Fin 2) * 5000 + 1 * r.val = R.val; rw [e0, hR]; omega
  | ⟨1, _⟩ => show win1_1.index t (1 : Fin 2) * 128 + 1 * k.val = k.val; rw [e1]; omega

/-- The first weight matrix's block is the whole matrix at every point. -/
theorem wrel_apply (c : Dev nD) (t : Fin cfg1.N) (k e : Fin 128) :
    (Gen.iblk1 V c 2 t : Vec Ideal S128x128 .f32) (ix2 k e) = (V c main_arg7 : S128x128.Idx → Ideal .f32) (ix2 k e) := by
  obtain ⟨-, -, -, -, e0, e1, -⟩ := idx_facts t
  unfold Gen.iblk1
  rw [View.read_apply]
  show V c main_arg7 _ = V c main_arg7 _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * e.val = e.val; rw [e1]; omega

/-- The second weight matrix's block is the whole matrix at every point. -/
theorem wroot_apply (c : Dev nD) (t : Fin cfg1.N) (k e : Fin 128) :
    (Gen.iblk1 V c 3 t : Vec Ideal S128x128 .f32) (ix2 k e) = (V c main_arg8 : S128x128.Idx → Ideal .f32) (ix2 k e) := by
  obtain ⟨-, -, -, -, -, -, e0, e1, -⟩ := idx_facts t
  unfold Gen.iblk1
  rw [View.read_apply]
  show V c main_arg8 _ = V c main_arg8 _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * e.val = e.val; rw [e1]; omega

/-- The bias row's block is the whole row at every point. -/
theorem bias_apply (c : Dev nD) (t : Fin cfg1.N) (u : Fin 1) (e : Fin 128) :
    (Gen.iblk1 V c 4 t : Vec Ideal S1x128 .f32) (ix2 u e) = (V c main_v32 : S1x128.Idx → Ideal .f32) (ix2 u e) := by
  obtain ⟨-, -, -, -, -, -, -, -, e0, e1, -⟩ := idx_facts t
  unfold Gen.iblk1
  rw [View.read_apply]
  show V c main_v32 _ = V c main_v32 _
  refine congrArg _ (funext fun a => Fin.ext ?_)
  match a with
  | ⟨0, _⟩ => show win1_4.index t (0 : Fin 2) * 1 + 1 * u.val = u.val; rw [e0]; omega
  | ⟨1, _⟩ => show win1_4.index t (1 : Fin 2) * 128 + 1 * e.val = e.val; rw [e1]; omega

/-- Entry `(r, e)` of the result's block at point `t` sits at row `5000 t + r`, channel `e` of the array. -/
theorem out_emb (t : Fin cfg1.N) (r : Fin 5000) (e : Fin 128) (R : Fin 50000) (hR : R.val = 5000 * t.val + r.val) :
    ((cfg1.win 5).blk t).view.emb (ix2 r e) = (ix2 R e : S50000x128.Idx) := by
  obtain ⟨-, -, -, -, -, -, -, -, -, -, e0, e1⟩ := idx_facts t
  refine funext fun a => Fin.ext ?_
  match a with
  | ⟨0, _⟩ => show win1_5.index t (0 : Fin 2) * 5000 + 1 * r.val = R.val; rw [e0, hR]; omega
  | ⟨1, _⟩ => show win1_5.index t (1 : Fin 2) * 128 + 1 * e.val = e.val; rw [e1]; omega

/-- What step `t` writes back is row block `t` of the layer of the arrays as they stand on entry. -/
theorem flushed_eq (c : Dev nD) (t : Fin cfg1.N) :
    (Gen.dat1 (F := Ideal) V c).flushed 5 t
      = ((cfg1.win 5).blk t).view.read (Elt Ideal)
          (Cert.Gcn.layer (V c main_v31) (V c main_v18) (V c main_arg7) (V c main_arg8) (V c main_v32)) := by
  show (cfg1.win 5).cut (grid1.coords t) ((Gen.dat1 (F := Ideal) V c).after 5 t) = _
  rw [Gen.after1_5]
  unfold Gen.out1_5
  rw [View.canon_unit_zero hz]
  simp only [View.ld_unit_zero (S := S5000x128) hz, View.ld_unit_zero (S := S128x128) hz, View.ld_unit_zero (S := S1x128) hz]
  funext j
  revert j
  show ∀ j : S5000x128.Idx,
    Gen.k1_pay1 (F := Ideal) (Gen.iblk1 V c 0 t) (Gen.iblk1 V c 1 t) (Gen.iblk1 V c 2 t) (Gen.iblk1 V c 3 t) (Gen.iblk1 V c 4 t) j
      = Cert.Gcn.layer (V c main_v31) (V c main_v18) (V c main_arg7) (V c main_arg8) (V c main_v32)
          (((cfg1.win 5).blk t).view.emb j)
  intro j
  obtain ⟨r, e, rfl⟩ : ∃ (r : Fin 5000) (e : Fin 128), j = ix2 r e := ⟨j 0, j 1, eq_ix2 j⟩
  have hR : 5000 * t.val + r.val < 50000 := by
    have ht : t.val < cfg1.N := t.isLt
    have hN : cfg1.N = 10 := N_eq
    omega
  rw [out_emb t r e ⟨_, hR⟩ rfl, Cert.Gcn.layer_apply]
  refine (ConvBody.pay1_apply (Gen.iblk1 V c 0 t) (Gen.iblk1 V c 1 t) (Gen.iblk1 V c 2 t) (Gen.iblk1 V c 3 t)
    (Gen.iblk1 V c 4 t) r e).trans ?_
  unfold Cert.Gcn.layerAt
  refine congrArg₂ max (congrArg₂ (· + ·) (congrArg₂ (· + ·) (Finset.sum_congr rfl fun k _ => ?_)
    (Finset.sum_congr rfl fun k _ => ?_)) ?_) rfl
  · rw [msg_apply V c t r k ⟨_, hR⟩ rfl, wrel_apply V c t k e]
  · rw [feat_apply V c t r k ⟨_, hR⟩ rfl, wroot_apply V c t k e]
  · exact bias_apply V c t 0 e

/-- An index of the array is in point `t`'s block iff each coordinate is in the block's range on its axis. -/
theorem mem_blk (t : Fin cfg1.N) (i : S50000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- The ten row blocks fill the array: row `i` is in the block of point `i / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by rw [N_eq]; omega⟩
  obtain ⟨-, -, -, -, -, -, -, -, -, -, e0, e1⟩ := idx_facts t
  have ht : t.val = (i 0).val / 5000 := rfl
  refine ⟨t, Gen.flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- The second convolution's output array after its ten steps is the layer of the arrays as they stand on entry. -/
theorem arr_eq (c : Dev nD) :
    (Gen.dat1 (F := Ideal) V c).arrAt 5 cfg1.N
      = Cert.Gcn.layer (V c main_v31) (V c main_v18) (V c main_arg7) (V c main_arg8) (V c main_v32) :=
  (Gen.dat1 (F := Ideal) V c).arrAt_eq_of_cover 5 _ (fun t _ => flushed_eq V c t) cover

end Cert.KernelIdeal.ConvRegion1

end
-- ==== Proof.ConvRegion2.lean ====
/-
  The third graph-convolution layer's output array, row block by row block.

  The layer's result is computed in ten steps, one per block of 5000 consecutive rows: at step `t` the body reads
  rows `5000 t … 5000 t + 4999` of the aggregated messages and of the node features, all of both weight matrices
  and the bias row, and writes the same rows of the result. Entry `(R, e)` of the layer depends only on row `R` of
  the messages and of the features, so each written block is the corresponding block of ONE function of the whole
  arrays, `Cert.Gcn.layer`; the ten blocks fill the 50000 rows (row `R` lies in block `R / 5000`), so the array
  after the ten steps is that function of the arrays as they stand on entry. Those entry contents `V` are arbitrary
  here: nothing is assumed of them and they are never opened.
-/
import proofs.«172957_j77661598646383_1_alg».proof.Proof.KernelIdealFrameP
import proofs.«172957_j77661598646383_1_alg».proof.Proof.ConvBody
import proofs.«172957_j77661598646383_1_alg».proof.Proof.Spec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.ConvRegion2

open Cert.KernelIdeal Cert.KernelIdeal.Gen

variable (V : (c : Dev nD) → (b : Ref sig .tc) → Buf (Elt Ideal) ((c : Thread nD τ).loc b))

/-- The body reads and writes its staging copies from their first entry: zero offsets on both axes. -/
theorem hz : (![0, 0] : Fin 2 → Nat) = fun _ => 0 := funext fun a => by fin_cases a <;> rfl

/-- The printed index maps, decided over the ten points: at point `t` the messages, the features and the result
    are at row block `t`; the weights and the bias row are at block 0 throughout. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has ten points. -/
theorem N_eq : cfg2.N = 10 := by decide

/-- Row `r` of the messages' block at point `t` is row `5000 t + r` of the array. -/
theorem msg_apply (c : Dev nD) (t : Fin cfg2.N) (r : Fin 5000) (k : Fin 128) (R : Fin 50000)
    (hR : R.val = 5000 * t.val + r.val) :
    (Gen.iblk2 V c 0 t : Vec Ideal S5000x128 .f32) (ix2 r k) = (V c main_v46 : S50000x128.Idx → Ideal .f32) (ix2 R k) := by
  obtain ⟨e0, e1, -⟩ := idx_facts t
  unfold Gen.iblk2
  rw [View.read_apply]
  show V c main_v46 _ = V c main_v46 _
  refine congrArg _ (funext fun a => Fin.ext ?_)
  match a with
  | ⟨0, _⟩ => show win2_0.index t (0 : Fin 2) * 5000 + 1 * r.val = R.val; rw [e0, hR]; omega
  | ⟨1, _⟩ => show win2_0.index t (1 : Fin 2) * 128 + 1 * k.val = k.val; rw [e1]; omega

/-- Row `r` of the features' block at point `t` is row `5000 t + r` of the array. -/
theorem feat_apply (c : Dev nD) (t : Fin cfg2.N) (r : Fin 5000) (k : Fin 128) (R : Fin 50000)
    (hR : R.val = 5000 * t.val + r.val) :
    (Gen.iblk2 V c 1 t : Vec Ideal S5000x128 .f32) (ix2 r k) = (V c main_v33 : S50000x128.Idx → Ideal .f32) (ix2 R k) := by
  obtain ⟨-, -, e0, e1, -⟩ := idx_facts t
  unfold Gen.iblk2
  rw [View.read_apply]
  show V c main_v33 _ = V c main_v33 _
  refine congrArg _ (funext fun a => Fin.ext ?_)
  match a with
  | ⟨0, _⟩ => show win2_1.index t (0 : Fin 2) * 5000 + 1 * r.val = R.val; rw [e0, hR]; omega
  | ⟨1, _⟩ => show win2_1.index t (1 : Fin 2) * 128 + 1 * k.val = k.val; rw [e1]; omega

/-- The first weight matrix's block is the whole matrix at every point. -/
theorem wrel_apply (c : Dev nD) (t : Fin cfg2.N) (k e : Fin 128) :
    (Gen.iblk2 V c 2 t : Vec Ideal S128x128 .f32) (ix2 k e) = (V c main_arg10 : S128x128.Idx → Ideal .f32) (ix2 k e) := by
  obtain ⟨-, -, -, -, e0, e1, -⟩ := idx_facts t
  unfold Gen.iblk2
  rw [View.read_apply]
  show V c main_arg10 _ = V c main_arg10 _
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 128 + 1 * e.val = e.val; rw [e1]; omega

/-- The second weight matrix's block is the whole matrix at every point. -/
theorem wroot_apply (c : Dev nD) (t : Fin cfg2.N) (k e : Fin 128) :
    (Gen.iblk2 V c 3 t : Vec Ideal S128x128 .f32) (ix2 k e) = (V c main_arg11 : S128x128.Idx → Ideal .f32) (ix2 k e) := by
  obtain ⟨-, -, -, -, -, -, e0, e1, -⟩ := idx_facts t
  unfold Gen.iblk2
  rw [View.read_apply]
  show V c main_arg11 _ = V c main_arg11 _
  refine congrArg _ (funext fun a => Fin.ext ?_)
  match a with
  | ⟨0, _⟩ => show win2_3.index t (0 : Fin 2) * 128 + 1 * k.val = k.val; rw [e0]; omega
  | ⟨1, _⟩ => show win2_3.index t (1 : Fin 2) * 128 + 1 * e.val = e.val; rw [e1]; omega

/-- The bias row's block is the whole row at every point. -/
theorem bias_apply (c : Dev nD) (t : Fin cfg2.N) (u : Fin 1) (e : Fin 128) :
    (Gen.iblk2 V c 4 t : Vec Ideal S1x128 .f32) (ix2 u e) = (V c main_v47 : S1x128.Idx → Ideal .f32) (ix2 u e) := by
  obtain ⟨-, -, -, -, -, -, -, -, e0, e1, -⟩ := idx_facts t
  unfold Gen.iblk2
  rw [View.read_apply]
  show V c main_v47 _ = V c main_v47 _
  refine congrArg _ (funext fun a => Fin.ext ?_)
  match a with
  | ⟨0, _⟩ => show win2_4.index t (0 : Fin 2) * 1 + 1 * u.val = u.val; rw [e0]; omega
  | ⟨1, _⟩ => show win2_4.index t (1 : Fin 2) * 128 + 1 * e.val = e.val; rw [e1]; omega

/-- Entry `(r, e)` of the result's block at point `t` sits at row `5000 t + r`, channel `e` of the array. -/
theorem out_emb (t : Fin cfg2.N) (r : Fin 5000) (e : Fin 128) (R : Fin 50000) (hR : R.val = 5000 * t.val + r.val) :
    ((cfg2.win 5).blk t).view.emb (ix2 r e) = (ix2 R e : S50000x128.Idx) := by
  obtain ⟨-, -, -, -, -, -, -, -, -, -, e0, e1⟩ := idx_facts t
  refine funext fun a => Fin.ext ?_
  match a with
  | ⟨0, _⟩ => show win2_5.index t (0 : Fin 2) * 5000 + 1 * r.val = R.val; rw [e0, hR]; omega
  | ⟨1, _⟩ => show win2_5.index t (1 : Fin 2) * 128 + 1 * e.val = e.val; rw [e1]; omega

/-- What step `t` writes back is row block `t` of the layer of the arrays as they stand on entry. -/
theorem flushed_eq (c : Dev nD) (t : Fin cfg2.N) :
    (Gen.dat2 (F := Ideal) V c).flushed 5 t
      = ((cfg2.win 5).blk t).view.read (Elt Ideal)
          (Cert.Gcn.layer (V c main_v46) (V c main_v33) (V c main_arg10) (V c main_arg11) (V c main_v47)) := by
  show (cfg2.win 5).cut (grid2.coords t) ((Gen.dat2 (F := Ideal) V c).after 5 t) = _
  rw [Gen.after2_5]
  unfold Gen.out2_5
  rw [View.canon_unit_zero hz]
  simp only [View.ld_unit_zero (S := S5000x128) hz, View.ld_unit_zero (S := S128x128) hz, View.ld_unit_zero (S := S1x128) hz]
  funext j
  revert j
  show ∀ j : S5000x128.Idx,
    Gen.k2_pay1 (F := Ideal) (Gen.iblk2 V c 0 t) (Gen.iblk2 V c 1 t) (Gen.iblk2 V c 2 t) (Gen.iblk2 V c 3 t) (Gen.iblk2 V c 4 t) j
      = Cert.Gcn.layer (V c main_v46) (V c main_v33) (V c main_arg10) (V c main_arg11) (V c main_v47)
          (((cfg2.win 5).blk t).view.emb j)
  intro j
  obtain ⟨r, e, rfl⟩ : ∃ (r : Fin 5000) (e : Fin 128), j = ix2 r e := ⟨j 0, j 1, eq_ix2 j⟩
  have hR : 5000 * t.val + r.val < 50000 := by
    have ht : t.val < cfg2.N := t.isLt
    have hN : cfg2.N = 10 := N_eq
    omega
  rw [out_emb t r e ⟨_, hR⟩ rfl, Cert.Gcn.layer_apply]
  refine (ConvBody.pay2_apply (Gen.iblk2 V c 0 t) (Gen.iblk2 V c 1 t) (Gen.iblk2 V c 2 t) (Gen.iblk2 V c 3 t)
    (Gen.iblk2 V c 4 t) r e).trans ?_
  unfold Cert.Gcn.layerAt
  refine congrArg₂ max (congrArg₂ (· + ·) (congrArg₂ (· + ·) (Finset.sum_congr rfl fun k _ => ?_)
    (Finset.sum_congr rfl fun k _ => ?_)) ?_) rfl
  · rw [msg_apply V c t r k ⟨_, hR⟩ rfl, wrel_apply V c t k e]
  · rw [feat_apply V c t r k ⟨_, hR⟩ rfl, wroot_apply V c t k e]
  · exact bias_apply V c t 0 e

/-- An index of the array is in point `t`'s block iff each coordinate is in the block's range on its axis. -/
theorem mem_blk (t : Fin cfg2.N) (i : S50000x128.Idx) :
    i ∈ ((cfg2.win 5).blk t).view.set
      ↔ ∀ a : Fin 2, win2_5.index t a * S5000x128.size a ≤ (i a).val ∧ (i a).val < win2_5.index t a * S5000x128.size a + S5000x128.size a := by
  show i ∈ ((View.whole main_v48).slice (win2_5.rect t)).set ↔ _
  rw [View.set_slice_whole, Rect.mem_set_unit]
  exact Iff.rfl

/-- The ten row blocks fill the array: row `i` is in the block of point `i / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 5000, by rw [N_eq]; omega⟩
  obtain ⟨-, -, -, -, -, -, -, -, -, -, e0, e1⟩ := idx_facts t
  have ht : t.val = (i 0).val / 5000 := rfl
  refine ⟨t, Gen.flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 128 ≤ (i 1).val ∧ (i 1).val < win2_5.index t (1 : Fin 2) * 128 + 128; rw [e1]; omega

/-- The third convolution's output array after its ten steps is the layer of the arrays as they stand on entry. -/
theorem arr_eq (c : Dev nD) :
    (Gen.dat2 (F := Ideal) V c).arrAt 5 cfg2.N
      = Cert.Gcn.layer (V c main_v46) (V c main_v33) (V c main_arg10) (V c main_arg11) (V c main_v47) :=
  (Gen.dat2 (F := Ideal) V c).arrAt_eq_of_cover 5 _ (fun t _ => flushed_eq V c t) cover

end Cert.KernelIdeal.ConvRegion2

end
-- ==== Proof.MlpBody.lean ====
/-
  The classifier head's kernel body, read entry by entry.

  The body loads the pooled embedding `emb` (128 x 128), the hidden weights `w1` (128 x 128) with their bias row,
  the output weights `w2` (128 x 10) with their bias row, and stores
      max ( emb * w1 + bias1 , 0 ) * w2 + bias2 ,
  each product taken on operands narrowed to a 16-bit format and accumulated into a zero matrix, each bias row
  repeated down the 128 graphs. At the ideal values narrowing a format is the identity and a product into the zero
  matrix is the plain sum over the inner axis, so the hidden layer at graph `r`, hidden unit `k` is the
  specification's `hiddenAt`, and the stored matrix at graph `r`, class `e` is the specification's `mlpAt`.
-/
import proofs.«172957_j77661598646383_1_alg».proof.Proof.Gen.KernelIdeal.Skeleton
import proofs.«172957_j77661598646383_1_alg».proof.Proof.LibPlainMatmulFmt
import proofs.«172957_j77661598646383_1_alg».proof.Proof.Spec
import Idealize.ShloMosaic.Lib.ValueLayout

noncomputable section

namespace Cert.KernelIdeal.MlpBody

open Cert.KernelIdeal Idealize.ShloMosaic Idealize.ShloMosaic.ValueIdx Idealize.ShloMosaic.PlainMatmul

/-! ## The two products of the body -/

/-- The hidden product (128 x 128 by 128 x 128, operands of any formats) into the zero matrix, at graph `r`,
    hidden unit `k`. -/
theorem hiddenMatmul_apply {φ₁ φ₂ : FTy} (lhs : FVec Ideal S128x128 φ₁) (rhs : FVec Ideal S128x128 φ₂) (r k : Fin 128) :
    matmul dot_S128x128_S128x128_S128x128_1_0_0_1_n_n none lhs rhs (constant (F := Ideal) S128x128 .f32 0x00000000#32) (ix2 r k)
      = ∑ j : Fin 128, lhs (ix2 r j) * rhs (ix2 j k) :=
  matmul_zero_apply_fmt 128 128 128 none lhs rhs r k

/-- The output product (128 x 128 by 128 x 10) into the zero matrix, at graph `r`, class `e`. -/
theorem outMatmul_apply {φ₁ φ₂ : FTy} (lhs : FVec Ideal S128x128 φ₁) (rhs : FVec Ideal S128x10 φ₂) (r : Fin 128) (e : Fin 10) :
    matmul dot_S128x128_S128x10_S128x10_1_0_0_1_n_n none lhs rhs (constant (F := Ideal) S128x10 .f32 0x00000000#32) (ix2 r e)
      = ∑ k : Fin 128, lhs (ix2 r k) * rhs (ix2 k e) :=
  matmul_zero_apply_fmt 128 128 10 none lhs rhs r e

/-! ## The hidden layer -/

/-- The hidden layer as the body computes it: the product of the narrowed embedding and hidden weights, plus the bias
    row repeated down the graphs, against the broadcast zero. -/
def hidden (x0 x1 : Vec Ideal S128x128 .f32) (x2 : Vec Ideal S1x128 .f32) : FVec Ideal S128x128 .f32 :=
  maximumf
    (addf
      (matmul dot_S128x128_S128x128_S128x128_1_0_0_1_n_n none
        (truncf .bf16 (shapeCast S128x128 x0 Gen.shapeCasts_S128x128_S128x128) Gen.bitsLt_bf16_f32)
        (truncf .bf16 x1 Gen.bitsLt_bf16_f32) (constant S128x128 .f32 0x00000000#32))
      (broadcastTo S128x128 (shapeCast S1x128 x2 Gen.shapeCasts_S1x128_S1x128) Gen.broadcasts_S1x128_S128x128))
    (broadcast S128x128 (Scalar.ofBits .f32 0x00000000#32))

/-- At graph `r`, hidden unit `k` it is the specification's hidden layer. -/
theorem hidden_apply (x0 x1 : Vec Ideal S128x128 .f32) (x2 : Vec Ideal S1x128 .f32) (r k : Fin 128) :
    hidden x0 x1 x2 (ix2 r k) = Cert.Gcn.hiddenAt x0 x1 x2 r k := by
  unfold hidden
  rw [maximumf_apply, addf_apply, hiddenMatmul_apply, broadcastTo_1b_ab_apply, shapeCast_self, shapeCast_self]
  rfl

/-! ## The stored matrix -/

/-- The body's stored value is the output product of the narrowed hidden layer and output weights, plus the output
    bias row repeated down the graphs. -/
theorem pay3_eq (x0 x1 : Vec Ideal S128x128 .f32) (x2 : Vec Ideal S1x128 .f32) (x3 : Vec Ideal S128x10 .f32)
    (x4 : Vec Ideal S1x10 .f32) :
    Gen.k3_pay1 (F := Ideal) x0 x1 x2 x3 x4
      = addf
          (matmul dot_S128x128_S128x10_S128x10_1_0_0_1_n_n none (truncf .bf16 (hidden x0 x1 x2) Gen.bitsLt_bf16_f32)
            (truncf .bf16 x3 Gen.bitsLt_bf16_f32) (constant S128x10 .f32 0x00000000#32))
          (broadcastTo S128x10 (shapeCast S1x10 x4 Gen.shapeCasts_S1x10_S1x10) Gen.broadcasts_S1x10_S128x10) := rfl

/-- The stored matrix at graph `r`, class `e` is the specification's classifier head there. -/
theorem pay3_apply (x0 x1 : Vec Ideal S128x128 .f32) (x2 : Vec Ideal S1x128 .f32) (x3 : Vec Ideal S128x10 .f32)
    (x4 : Vec Ideal S1x10 .f32) (r : Fin 128) (e : Fin 10) :
    Gen.k3_pay1 (F := Ideal) x0 x1 x2 x3 x4 (ix2 r e) = Cert.Gcn.mlpAt x0 x1 x2 x3 x4 r e := by
  rw [pay3_eq, addf_apply, outMatmul_apply, broadcastTo_1b_ab_apply, shapeCast_self]
  unfold Cert.Gcn.mlpAt
  refine congrArg (· + x4 (ix2 (0 : Fin 1) e)) (Finset.sum_congr rfl fun k _ => ?_)
  rw [truncf_apply, truncf_apply, hidden_apply]

/-- So the stored matrix is the specification's classifier head of the loaded arrays. -/
theorem pay3_fun (x0 x1 : Vec Ideal S128x128 .f32) (x2 : Vec Ideal S1x128 .f32) (x3 : Vec Ideal S128x10 .f32)
    (x4 : Vec Ideal S1x10 .f32) :
    Gen.k3_pay1 (F := Ideal) x0 x1 x2 x3 x4 = Cert.Gcn.mlp x0 x1 x2 x3 x4 := by
  funext j
  obtain ⟨r, e, rfl⟩ : ∃ (r : Fin 128) (e : Fin 10), j = ix2 r e := ⟨j 0, j 1, eq_ix2 j⟩
  rw [pay3_apply, Cert.Gcn.mlp_apply]

end Cert.KernelIdeal.MlpBody

end
-- ==== Proof.MlpRegion.lean ====
/-
  The classifier-head call's output array after the call.

  This call has no grid: it runs its body once, and every window's block is its whole array. So each staged input
  block is the array the call finds (the pooled embedding, the hidden weights, the hidden bias row, the output weights,
  the output bias row), what the body leaves in the output's staging buffer is its one stored matrix, which is the
  specification's classifier head of those five arrays, and the single write-back, whose block is the whole output
  array, leaves exactly that in the array.
-/
import proofs.«172957_j77661598646383_1_alg».proof.Proof.KernelIdealFrameP
import proofs.«172957_j77661598646383_1_alg».proof.Proof.MlpBody
import Idealize.ShloMosaic.Lib.Pipeline.Value

noncomputable section

namespace Cert.KernelIdeal.MlpRegion

open Cert.KernelIdeal Idealize.ShloMosaic Idealize.ShloMosaic.TcCoe Idealize.ShloMosaic.ValueIdx Idealize.SL.Sem
open Idealize.ShloMosaic.Pipeline (Dat)

-- the buffer contents the call finds, a parameter
variable (V : (c : Dev nD) → (b : Ref sig .tc) → Buf (Elt Ideal) ((c : Thread nD τ).loc b))

theorem hz : (![0, 0] : Fin 2 → Nat) = fun _ => 0 := funext fun a => by fin_cases a <;> rfl

/-! ## Each staged input block is its whole array -/

/-- The pooled embedding. -/
theorem iblk_emb (c : Dev nD) (t : Fin cfg3.N) : Gen.iblk3 V c 0 t = V c main_v51 := by
  unfold Gen.iblk3
  exact Memref.read_access_unit_zero (Elt Ideal) main_v51 (off := fun a => win3_0.index t a * main_v51.ty.shape.size a)
    (funext fun a => Nat.zero_mul _) _ (V c main_v51)

/-- The hidden weights. -/
theorem iblk_w1 (c : Dev nD) (t : Fin cfg3.N) : Gen.iblk3 V c 1 t = V c main_arg13 := by
  unfold Gen.iblk3
  exact Memref.read_access_unit_zero (Elt Ideal) main_arg13 (off := fun a => win3_1.index t a * main_arg13.ty.shape.size a)
    (funext fun a => Nat.zero_mul _) _ (V c main_arg13)

/-- The hidden bias row. -/
theorem iblk_b1 (c : Dev nD) (t : Fin cfg3.N) : Gen.iblk3 V c 2 t = V c main_v52 := by
  unfold Gen.iblk3
  exact Memref.read_access_unit_zero (Elt Ideal) main_v52 (off := fun a => win3_2.index t a * main_v52.ty.shape.size a)
    (funext fun a => Nat.zero_mul _) _ (V c main_v52)

/-- The output weights. -/
theorem iblk_w2 (c : Dev nD) (t : Fin cfg3.N) : Gen.iblk3 V c 3 t = V c main_arg15 := by
  unfold Gen.iblk3
  exact Memref.read_access_unit_zero (Elt Ideal) main_arg15 (off := fun a => win3_3.index t a * main_arg15.ty.shape.size a)
    (funext fun a => Nat.zero_mul _) _ (V c main_arg15)

/-- The output bias row. -/
theorem iblk_b2 (c : Dev nD) (t : Fin cfg3.N) : Gen.iblk3 V c 4 t = V c main_v53 := by
  unfold Gen.iblk3
  exact Memref.read_access_unit_zero (Elt Ideal) main_v53 (off := fun a => win3_4.index t a * main_v53.ty.shape.size a)
    (funext fun a => Nat.zero_mul _) _ (V c main_v53)

/-! ## The write-back and the array -/

/-- What the one point writes back is the (whole-array) block of the specification's head of the five arrays. -/
theorem flushed_eq (c : Dev nD) (t : Fin cfg3.N) :
    (Gen.dat3 V c).flushed 5 t = ((cfg3.win 5).blk t).view.read (Elt Ideal)
      (Cert.Gcn.mlp (V c main_v51) (V c main_arg13) (V c main_v52) (V c main_arg15) (V c main_v53)) := by
  show (cfg3.win 5).cut (grid3.coords t) ((Gen.dat3 V c).after 5 t) = _
  rw [Gen.after3_5]
  unfold Gen.out3_5
  rw [View.canon_unit_zero hz]
  simp only [View.ld_unit_zero (S := S128x128) hz, View.ld_unit_zero (S := S1x128) hz, View.ld_unit_zero (S := S128x10) hz,
    View.ld_unit_zero (S := S1x10) hz]
  rw [iblk_emb, iblk_w1, iblk_b1, iblk_w2, iblk_b2, MlpBody.pay3_fun]
  exact (Memref.read_access_unit_zero (Elt Ideal) main_v54 (off := fun a => win3_5.index t a * main_v54.ty.shape.size a)
    (funext fun a => Nat.zero_mul _) _ _).symm

/-- The call's one point. -/
abbrev pt : Fin cfg3.N := ⟨0, by decide⟩

/-- The output array after the call is the specification's classifier head of the arrays the call finds. -/
theorem arr_eq (c : Dev nD) :
    (Gen.dat3 (F := Ideal) V c).arrAt 5 cfg3.N
      = Cert.Gcn.mlp (V c main_v51) (V c main_arg13) (V c main_v52) (V c main_arg15) (V c main_v53) :=
  (Gen.dat3 V c).arrAt_eq_of_cover 5 _ (fun t _ => flushed_eq V c t) fun i =>
    ⟨pt, Gen.flush3_5 pt, by
      show i ∈ ((View.whole main_v54).slice (win3_5.rect pt)).set
      rw [View.set_slice_whole, Rect.mem_set_unit]
      intro a
      have h0 : (i 0 : Nat) < 128 := (i 0).isLt
      have h1 : (i 1 : Nat) < 10 := (i 1).isLt
      match a with
      | ⟨0, _⟩ => show 0 * 128 ≤ (i 0 : Nat) ∧ (i 0 : Nat) < 0 * 128 + 128; omega
      | ⟨1, _⟩ => show 0 * 10 ≤ (i 1 : Nat) ∧ (i 1 : Nat) < 0 * 10 + 10; omega⟩

end Cert.KernelIdeal.MlpRegion

end
-- ==== Proof.KernelReshape.lean ====
/-
  The kernel program's bias reshapes, read as the specification's one-row matrices.

  Before each call the kernel program reshapes a bias vector of `n` entries (128 channels, or the 10 classes) to
  a `1 x n` matrix. A reshape keeps the row-major position: entry `(0, e)` of the matrix sits at position
  `0 * n + e = e`, the position of entry `e` of the vector. That is the specification's `row128` / `row10`.
-/
import proofs.«172957_j77661598646383_1_alg».proof.KernelIdeal
import proofs.«172957_j77661598646383_1_alg».proof.Proof.Spec
import Idealize.ShloMosaic.Lib.Pipeline.Value
import Idealize.ShloMosaic.Lib.ValueIdx

noncomputable section

namespace Cert.KernelIdeal.Bridge

open Cert.KernelIdeal Idealize.ShloMosaic Idealize.ShloMosaic.ValueIdx

variable [Facts]
open Facts₀ Facts

/-- A vector of 128 channels reshaped to one row: row 0, column `e` is entry `e`. -/
theorem reshape_row128 (b : FVec Ideal S128 .f32) :
    shapeCast S1x128 b shapeCasts_S128_S1x128 = Cert.Gcn.row128 b :=
  funext fun j => shapeCast_apply b shapeCasts_S128_S1x128 j (ix1 ⟨(j 1).val, (j 1).isLt⟩) (by
    rewrite [Shape.rowMajor_val_two, Shape.rowMajor_val_one]
    have h0 : (j 0).val < 1 := (j 0).isLt
    show (j 1).val = (j 0).val * 128 + (j 1).val
    omega)

/-- A vector of the 10 classes reshaped to one row: row 0, column `e` is entry `e`. -/
theorem reshape_row10 (b : FVec Ideal S10 .f32) :
    shapeCast S1x10 b shapeCasts_S10_S1x10 = Cert.Gcn.row10 b :=
  funext fun j => shapeCast_apply b shapeCasts_S10_S1x10 j (ix1 ⟨(j 1).val, (j 1).isLt⟩) (by
    rewrite [Shape.rowMajor_val_two, Shape.rowMajor_val_one]
    have h0 : (j 0).val < 1 := (j 0).isLt
    show (j 1).val = (j 0).val * 10 + (j 1).val
    omega)

end Cert.KernelIdeal.Bridge

end
-- ==== Proof.KernelValue.lean ====
/-
  The kernel program's two results as the network's function of the arguments.

  Reading the fold of buffer contents through the program's eight segments from the end: the logits' buffer holds what the
  last region's write-back leaves, the classifier head of that region's inputs; the embedding's buffer is the per-graph
  sum of the third layer's output; each layer's output buffer holds what its region's ten write-backs leave, the layer
  function of the aggregated messages, the previous features, the two weight matrices and the bias row; the aggregated
  messages are the host's gather, scale and scatter-add of the previous features; and every argument buffer is as launched.
  Composed, both results are one function of the seventeen arguments.
-/
import proofs.«172957_j77661598646383_1_alg».proof.Proof.KernelRun
import proofs.«172957_j77661598646383_1_alg».proof.Proof.KernelHost
import proofs.«172957_j77661598646383_1_alg».proof.Proof.ConvRegion0
import proofs.«172957_j77661598646383_1_alg».proof.Proof.ConvRegion1
import proofs.«172957_j77661598646383_1_alg».proof.Proof.ConvRegion2
import proofs.«172957_j77661598646383_1_alg».proof.Proof.MlpRegion
import proofs.«172957_j77661598646383_1_alg».proof.Proof.KernelReshape
import proofs.«172957_j77661598646383_1_alg».proof.Proof.Spec

set_option maxRecDepth 16384

noncomputable section

namespace Cert.KernelIdeal.Net

open Cert.KernelIdeal Cert.KernelIdeal.Gen Cert.KernelIdeal.Host
open Idealize.ShloMosaic Idealize.ShloMosaic.TcCoe Idealize.SL.Sem Idealize.ShloMosaic.StableHlo

variable (m : (ℓ : Loc nD τ sig) → Buf (Elt Ideal) ℓ) (ρ : Dev nD → PrngReg)

/-- The node features after the first layer, as a function of the launch contents. -/
def h1 (c : Dev nD) : FVec Ideal S50000x128 .f32 :=
  Cert.Gcn.layer (aggOf (m ((c.tc : Thread nD τ).loc main_arg0)) (srcIdx (m ((c.tc : Thread nD τ).loc main_arg1))) (dstIdx (m ((c.tc : Thread nD τ).loc main_arg1))) (m ((c.tc : Thread nD τ).loc main_arg3))) (m ((c.tc : Thread nD τ).loc main_arg0)) (m ((c.tc : Thread nD τ).loc main_arg4)) (m ((c.tc : Thread nD τ).loc main_arg5)) (Cert.Gcn.row128 (m ((c.tc : Thread nD τ).loc main_arg6)))
/-- After the second layer. -/
def h2 (c : Dev nD) : FVec Ideal S50000x128 .f32 :=
  Cert.Gcn.layer (aggOf (h1 m c) (srcIdx (m ((c.tc : Thread nD τ).loc main_arg1))) (dstIdx (m ((c.tc : Thread nD τ).loc main_arg1))) (m ((c.tc : Thread nD τ).loc main_arg3))) (h1 m c) (m ((c.tc : Thread nD τ).loc main_arg7)) (m ((c.tc : Thread nD τ).loc main_arg8)) (Cert.Gcn.row128 (m ((c.tc : Thread nD τ).loc main_arg9)))
/-- After the third layer. -/
def h3 (c : Dev nD) : FVec Ideal S50000x128 .f32 :=
  Cert.Gcn.layer (aggOf (h2 m c) (srcIdx (m ((c.tc : Thread nD τ).loc main_arg1))) (dstIdx (m ((c.tc : Thread nD τ).loc main_arg1))) (m ((c.tc : Thread nD τ).loc main_arg3))) (h2 m c) (m ((c.tc : Thread nD τ).loc main_arg10)) (m ((c.tc : Thread nD τ).loc main_arg11)) (Cert.Gcn.row128 (m ((c.tc : Thread nD τ).loc main_arg12)))
/-- The pooled embedding. -/
def embedding (c : Dev nD) : FVec Ideal S128x128 .f32 := poolOf (h3 m c) (m ((c.tc : Thread nD τ).loc main_arg2))
/-- The logits. -/
def logits (c : Dev nD) : FVec Ideal S128x10 .f32 :=
  Cert.Gcn.mlp (embedding m c) (m ((c.tc : Thread nD τ).loc main_arg13)) (Cert.Gcn.row128 (m ((c.tc : Thread nD τ).loc main_arg14))) (m ((c.tc : Thread nD τ).loc main_arg15)) (Cert.Gcn.row10 (m ((c.tc : Thread nD τ).loc main_arg16)))

/-- The first region's output buffer at its exit: the first layer. -/
theorem w2_h1 (c : Dev nD) : W2 m ρ c (Proc.devRef .tc main_v18) = h1 m c := by
  rw [w2_v18 m ρ c, Cert.KernelIdeal.ConvRegion0.arr_eq (V1 m ρ) c]
  show Cert.Gcn.layer (W1 m ρ c (Proc.devRef .tc main_v16)) (W1 m ρ c (Proc.devRef .tc main_arg0)) (W1 m ρ c (Proc.devRef .tc main_arg4))
      (W1 m ρ c (Proc.devRef .tc main_arg5)) (W1 m ρ c (Proc.devRef .tc main_v17)) = _
  rw [w1_v16 m ρ c, w1_arg0 m ρ c, w1_arg4 m ρ c, w1_arg5 m ρ c, w1_v17 m ρ c, Cert.KernelIdeal.Bridge.reshape_row128]
  rfl

/-- The second region's output buffer at its exit: the second layer. -/
theorem w4_h2 (c : Dev nD) : W4 m ρ c (Proc.devRef .tc main_v33) = h2 m c := by
  rw [w4_v33 m ρ c, Cert.KernelIdeal.ConvRegion1.arr_eq (V3 m ρ) c]
  show Cert.Gcn.layer (W3 m ρ c (Proc.devRef .tc main_v31)) (W3 m ρ c (Proc.devRef .tc main_v18)) (W3 m ρ c (Proc.devRef .tc main_arg7))
      (W3 m ρ c (Proc.devRef .tc main_arg8)) (W3 m ρ c (Proc.devRef .tc main_v32)) = _
  rw [w3_v31 m ρ c, w3_v18 m ρ c, w3_arg7 m ρ c, w3_arg8 m ρ c, w3_v32 m ρ c, w2_h1 m ρ c, Cert.KernelIdeal.Bridge.reshape_row128]
  rfl

/-- The third region's output buffer at its exit: the third layer. -/
theorem w6_h3 (c : Dev nD) : W6 m ρ c (Proc.devRef .tc main_v48) = h3 m c := by
  rw [w6_v48 m ρ c, Cert.KernelIdeal.ConvRegion2.arr_eq (V5 m ρ) c]
  show Cert.Gcn.layer (W5 m ρ c (Proc.devRef .tc main_v46)) (W5 m ρ c (Proc.devRef .tc main_v33)) (W5 m ρ c (Proc.devRef .tc main_arg10))
      (W5 m ρ c (Proc.devRef .tc main_arg11)) (W5 m ρ c (Proc.devRef .tc main_v47)) = _
  rw [w5_v46 m ρ c, w5_v33 m ρ c, w5_arg10 m ρ c, w5_arg11 m ρ c, w5_v47 m ρ c, w4_h2 m ρ c, Cert.KernelIdeal.Bridge.reshape_row128]
  rfl

/-- The embedding's buffer at the end. -/
theorem w8_embedding (c : Dev nD) : W8 m ρ c (Proc.devRef .tc main_v51) = embedding m c := by
  rw [w8_v51 m ρ c, w7_v51 m ρ c, w6_h3 m ρ c]
  rfl

/-- The logits' buffer at the end. -/
theorem w8_logits (c : Dev nD) : W8 m ρ c (Proc.devRef .tc main_v54) = logits m c := by
  rw [w8_v54 m ρ c, Cert.KernelIdeal.MlpRegion.arr_eq (V7 m ρ) c]
  show Cert.Gcn.mlp (W7 m ρ c (Proc.devRef .tc main_v51)) (W7 m ρ c (Proc.devRef .tc main_arg13)) (W7 m ρ c (Proc.devRef .tc main_v52))
      (W7 m ρ c (Proc.devRef .tc main_arg15)) (W7 m ρ c (Proc.devRef .tc main_v53)) = _
  rw [w7_v51 m ρ c, w7_arg13 m ρ c, w7_v52 m ρ c, w7_arg15 m ρ c, w7_v53 m ρ c, w6_h3 m ρ c,
    Cert.KernelIdeal.Bridge.reshape_row128, Cert.KernelIdeal.Bridge.reshape_row10]
  rfl

/-- The kernel program's run: it terminates, the logits and the embedding are the network's functions of the arguments,
    and the arguments are unchanged. -/
theorem run : θ_run defs (onTc (τ := τ) (main (F := Ideal))) ⟨m, fun _ => 0, ρ⟩ (fun r => ∀ c : Dev nD,
      r.2.mem ((c.tc : Thread nD τ).loc main_v54) = logits m c
      ∧ r.2.mem ((c.tc : Thread nD τ).loc main_v51) = embedding m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (w8_logits m ρ c), (h c).2.1.trans (w8_embedding m ρ c), (h c).2.2⟩)
    (Cert.KernelIdeal.Named.run_named (F := Ideal) m ρ)

end Cert.KernelIdeal.Net

end
-- ==== Proof.RefChain.lean ====
/-
  The reference program's two results as a composition of named functions.

  The reference's run ends with each result at one long term of the arguments. That term is, read from the inside out:
  three times "aggregate the messages of the current node features along the edges, then apply a graph-convolution layer"
  (two host matrix products, a broadcast bias, a maximum with zero), then the per-graph sum of the node rows, then the
  classifier head. This module names the pieces exactly as the term spells them, so that the long term IS their composition
  by unfolding alone.
-/
import proofs.«172957_j77661598646383_1_alg».proof.Proof.Gen.ReferenceIdeal.Run
import Idealize.ShloMosaic.PureOps.Ideal

set_option maxRecDepth 16384

noncomputable section

namespace Cert.ReferenceIdeal.Chain

open Cert.ReferenceIdeal Cert.ReferenceIdeal.Gen Cert.ReferenceIdeal.Value
open Idealize.ShloMosaic Idealize.ShloMosaic.TcCoe Idealize.SL.Sem Idealize.ShloMosaic.StableHlo

/-- The source node of every edge: row 0 of the edge list. -/
def srcIdx (E : (⟨S2x625000, .i32⟩ : BufTy).Contents (Elt Ideal)) : (⟨S625000, .i32⟩ : BufTy).Contents (Elt Ideal) :=
  shapeCast _ (extractStridedSlice S1x625000 ![0, 0] E slices_S2x625000_S1x625000_0_0) shapeCasts_S1x625000_S625000

/-- The target node of every edge: row 1 of the edge list. -/
def dstIdx (E : (⟨S2x625000, .i32⟩ : BufTy).Contents (Elt Ideal)) : (⟨S625000, .i32⟩ : BufTy).Contents (Elt Ideal) :=
  shapeCast _ (extractStridedSlice S1x625000 ![1, 0] E slices_S2x625000_S1x625000_1_0) shapeCasts_S1x625000_S625000

/-- The aggregated messages of one layer: gather the rows of `h` at the sources (a negative index counted from the end),
    scale row `j` by the weight of edge `j`, and add the rows up at the targets, from zero. -/
def aggOf (h : FVec Ideal S50000x128 .f32) (i1 i3 : (⟨S625000, .i32⟩ : BufTy).Contents (Elt Ideal)) (w : FVec Ideal S625000 .f32) :
    FVec Ideal S50000x128 .f32 :=
  Host.scatterAdd scatter_S50000x128_S625000x1_S625000x128_1_0_0_1
    (broadcastInDim S50000x128 ![] bcast_S_S50000x128 (constant S_ .f32 0x00000000#32))
    (broadcastInDim S625000x1 ![0] bcast_S625000_S625000x1_0 i3)
    (mulf (Host.gather gather_S50000x128_S625000x1_S625000x128_1_0_n_n_0_1_1128 h
        (broadcastInDim S625000x1 ![0] bcast_S625000_S625000x1_0
          (select (cmpi .slt i1 (broadcastInDim S625000 ![] bcast_S_S625000 (constantI S_ 32 0#32)))
            (addi i1 (broadcastInDim S625000 ![] bcast_S_S625000 (constantI S_ 32 50000#32))) i1)))
      (broadcastInDim S625000x128 ![0, 1] bcast_S625000x1_S625000x128_0_1 (broadcastInDim S625000x1 ![0] bcast_S625000_S625000x1_0 w)))

/-- The pooled embedding: the node rows added up per graph, from zero. -/
def poolOf (h : FVec Ideal S50000x128 .f32) (bt : (⟨S50000, .i32⟩ : BufTy).Contents (Elt Ideal)) : FVec Ideal S128x128 .f32 :=
  Host.scatterAdd scatter_S128x128_S50000x1_S50000x128_1_0_0_1
    (broadcastInDim S128x128 ![] bcast_S_S128x128 (constant S_ .f32 0x00000000#32))
    (broadcastInDim S50000x1 ![0] bcast_S50000_S50000x1_0 bt) h

/-- One layer as the reference spells it: (agg · wrel + bias) + x · wroot, then the maximum with zero. -/
def layerTerm (agg x : FVec Ideal S50000x128 .f32) (wrel wroot : FVec Ideal S128x128 .f32) (b : FVec Ideal S128 .f32) :
    FVec Ideal S50000x128 .f32 :=
  maximumf (addf (addf (Host.dotGeneral dot_S50000x128_S128x128_S50000x128_1_0_0_1_n_n none agg wrel)
        (broadcastInDim S50000x128 ![0, 1] bcast_S1x128_S50000x128_0_1 (broadcastInDim S1x128 ![1] bcast_S128_S1x128_1 b)))
      (Host.dotGeneral dot_S50000x128_S128x128_S50000x128_1_0_0_1_n_n none x wroot))
    (broadcastInDim S50000x128 ![] bcast_S_S50000x128 (constant S_ .f32 0x00000000#32))

/-- The classifier head as the reference spells it. -/
def mlpTerm (emb w1 : FVec Ideal S128x128 .f32) (b1 : FVec Ideal S128 .f32) (w2 : FVec Ideal S128x10 .f32) (b2 : FVec Ideal S10 .f32) :
    FVec Ideal S128x10 .f32 :=
  addf (Host.dotGeneral dot_S128x128_S128x10_S128x10_1_0_0_1_n_n none
        (maximumf (addf (Host.dotGeneral dot_S128x128_S128x128_S128x128_1_0_0_1_n_n none emb w1)
              (broadcastInDim S128x128 ![0, 1] bcast_S1x128_S128x128_0_1 (broadcastInDim S1x128 ![1] bcast_S128_S1x128_1 b1)))
            (broadcastInDim S128x128 ![] bcast_S_S128x128 (constant S_ .f32 0x00000000#32))) w2)
      (broadcastInDim S128x10 ![0, 1] bcast_S1x10_S128x10_0_1 (broadcastInDim S1x10 ![1] bcast_S10_S1x10_1 b2))

variable (m : (ℓ : Loc nD τ sig) → Buf (Elt Ideal) ℓ)

/-- The node features after the first, second and third layer. -/
def h1 (c : Dev nD) : FVec Ideal S50000x128 .f32 :=
  layerTerm (aggOf (m ((c.tc : Thread nD τ).loc main_arg0)) (srcIdx (m ((c.tc : Thread nD τ).loc main_arg1))) (dstIdx (m ((c.tc : Thread nD τ).loc main_arg1))) (m ((c.tc : Thread nD τ).loc main_arg3))) (m ((c.tc : Thread nD τ).loc main_arg0)) (m ((c.tc : Thread nD τ).loc main_arg4)) (m ((c.tc : Thread nD τ).loc main_arg5)) (m ((c.tc : Thread nD τ).loc main_arg6))
def h2 (c : Dev nD) : FVec Ideal S50000x128 .f32 :=
  layerTerm (aggOf (h1 m c) (srcIdx (m ((c.tc : Thread nD τ).loc main_arg1))) (dstIdx (m ((c.tc : Thread nD τ).loc main_arg1))) (m ((c.tc : Thread nD τ).loc main_arg3))) (h1 m c) (m ((c.tc : Thread nD τ).loc main_arg7)) (m ((c.tc : Thread nD τ).loc main_arg8)) (m ((c.tc : Thread nD τ).loc main_arg9))
def h3 (c : Dev nD) : FVec Ideal S50000x128 .f32 :=
  layerTerm (aggOf (h2 m c) (srcIdx (m ((c.tc : Thread nD τ).loc main_arg1))) (dstIdx (m ((c.tc : Thread nD τ).loc main_arg1))) (m ((c.tc : Thread nD τ).loc main_arg3))) (h2 m c) (m ((c.tc : Thread nD τ).loc main_arg10)) (m ((c.tc : Thread nD τ).loc main_arg11)) (m ((c.tc : Thread nD τ).loc main_arg12))

set_option maxHeartbeats 4000000 in
/-- The second result, the pooled embedding, is the per-graph sum of the third layer's rows. -/
theorem res_embedding (c : Dev nD) : res_main_v66 (F := Ideal) m c = poolOf (h3 m c) (m ((c.tc : Thread nD τ).loc main_arg2)) := by
  unfold res_main_v66 h3 h2 h1 layerTerm aggOf poolOf srcIdx dstIdx
  rfl

set_option maxHeartbeats 4000000 in
/-- The first result, the logits, is the classifier head of the pooled embedding. -/
theorem res_logits (c : Dev nD) :
    res_main_v75 (F := Ideal) m c = mlpTerm (poolOf (h3 m c) (m ((c.tc : Thread nD τ).loc main_arg2))) (m ((c.tc : Thread nD τ).loc main_arg13)) (m ((c.tc : Thread nD τ).loc main_arg14)) (m ((c.tc : Thread nD τ).loc main_arg15)) (m ((c.tc : Thread nD τ).loc main_arg16)) := by
  unfold res_main_v75 mlpTerm h3 h2 h1 layerTerm aggOf poolOf srcIdx dstIdx
  rfl

end Cert.ReferenceIdeal.Chain

end
-- ==== Proof.LibHostDotPlain.lean ====
/-
  A host matrix product read at an index, at the ideal values.

  For the dimension numbers of an ordinary product of an `M × K` matrix by a `K × N` matrix (contract the left
  operand's axis 1 with the right operand's axis 0, no batch axis), the host's dot_general is, at row `r` and column
  `e`, the sum over `k < K` of `lhs (r, k) * rhs (k, e)` on the extended reals, whatever precision it is asked for.
  Stated over literal-size coordinates (`ix2 r e`); a printed record of dimension numbers with the lists
  [1], [0], [0], [1], [], [] is `DotDims.plain M K N` up to the proof of its well-formedness, which is irrelevant, so
  the lemma applies to a printed host product by unification.
-/
import proofs.«172957_j77661598646383_1_alg».proof.Proof.LibPlainMatmul

noncomputable section

namespace Idealize.ShloMosaic.PlainMatmul

open Idealize.ShloMosaic Idealize.ShloMosaic.ValueIdx

/-- A host product of an `M x K` matrix by a `K x N` matrix at `(r, e)`: the sum over the inner axis of the
    operands' products. -/
theorem hostDot_plain_apply (M K N : ℕ) (lhs : FVec Ideal ⟨2, ![M, K]⟩ .f32) (rhs : FVec Ideal ⟨2, ![K, N]⟩ .f32)
    (r : Fin M) (e : Fin N) :
    Host.dotGeneral (F := Ideal) (DotDims.plain M K N) none lhs rhs (ix2 r e)
      = ∑ k : Fin K, lhs (ix2 r k) * rhs (ix2 k e) := by
  simp only [Host.dotGeneral]
  rw [Ideal.dotGeneral_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.RefLayers.lean ====
/-
  The reference network's two building blocks, read as the specification's functions.

  The reference computes a graph-convolution layer as
      max ( (agg * Wrel + bias) + x * Wroot , 0 )
  with two host matrix products, the bias vector first made a one-row matrix and then repeated down the
  50000 rows, and the zero a broadcast scalar; and the classifier head as
      max ( emb * W1 + bias1 , 0 ) * W2 + bias2 .
  At the ideal values a host product of an `M x K` matrix by a `K x N` matrix is, at row `r` and column `e`,
  the sum over `k < K` of `lhs (r, k) * rhs (k, e)`; a bias broadcast reads entry `e` of the vector at every
  row; the broadcast zero reads the zero word. Entry by entry the layer is therefore
      max ( (sum_k agg(r,k) Wrel(k,e) + b(e)) + sum_k x(r,k) Wroot(k,e) , 0 ),
  which is the specification's `max ( (sum + sum) + b(e) , 0 )` by commuting the last two summands
  (addition of extended reals is commutative and associative, so no finiteness is asked), and the head is the
  specification's `mlp` term by term.
-/
import proofs.«172957_j77661598646383_1_alg».proof.ReferenceIdeal
import proofs.«172957_j77661598646383_1_alg».proof.Proof.Spec
import proofs.«172957_j77661598646383_1_alg».proof.Proof.LibPlainMatmul
import proofs.«172957_j77661598646383_1_alg».proof.Proof.LibHostDotPlain
import Idealize.ShloMosaic.Lib.Pipeline.Value
import Idealize.ShloMosaic.Lib.ValueIdx
import Idealize.ShloMosaic.PureOps.Ideal.Laws

noncomputable section

namespace Cert.ReferenceIdeal.Bridge

open Cert.ReferenceIdeal Idealize.ShloMosaic Idealize.ShloMosaic.ValueIdx Idealize.ShloMosaic.PlainMatmul

variable [Facts]
open Facts₀ Facts

/-! ## The three products of the reference -/

/-- The layers' product (50000 x 128 by 128 x 128) at node `r`, channel `e`. -/
theorem layerDot_apply (lhs : FVec Ideal S50000x128 .f32) (rhs : FVec Ideal S128x128 .f32) (r : Fin 50000) (e : Fin 128) :
    Host.dotGeneral (F := Ideal) dot_S50000x128_S128x128_S50000x128_1_0_0_1_n_n none lhs rhs (ix2 r e)
      = ∑ k : Fin 128, lhs (ix2 r k) * rhs (ix2 k e) :=
  hostDot_plain_apply 50000 128 128 lhs rhs r e

/-- The head's hidden product (128 x 128 by 128 x 128) at graph `r`, hidden unit `k`. -/
theorem hiddenDot_apply (lhs rhs : FVec Ideal S128x128 .f32) (r k : Fin 128) :
    Host.dotGeneral (F := Ideal) dot_S128x128_S128x128_S128x128_1_0_0_1_n_n none lhs rhs (ix2 r k)
      = ∑ j : Fin 128, lhs (ix2 r j) * rhs (ix2 j k) :=
  hostDot_plain_apply 128 128 128 lhs rhs r k

/-- The head's output product (128 x 128 by 128 x 10) at graph `r`, class `e`. -/
theorem outDot_apply (lhs : FVec Ideal S128x128 .f32) (rhs : FVec Ideal S128x10 .f32) (r : Fin 128) (e : Fin 10) :
    Host.dotGeneral (F := Ideal) dot_S128x128_S128x10_S128x10_1_0_0_1_n_n none lhs rhs (ix2 r e)
      = ∑ k : Fin 128, lhs (ix2 r k) * rhs (ix2 k e) :=
  hostDot_plain_apply 128 128 10 lhs rhs r e

/-! ## The bias broadcasts and the broadcast zero -/

/-- A bias vector of 128 channels made a one-row matrix is the specification's `row128`. -/
theorem bcast_row128 (b : FVec Ideal S128 .f32) :
    broadcastInDim S1x128 ![1] bcast_S128_S1x128_1 b = Cert.Gcn.row128 b :=
  funext fun j => broadcastInDim_apply _ bcast_S128_S1x128_1 b j (ix1 ⟨(j 1).val, (j 1).isLt⟩) (fun a => match a with
    | ⟨0, _⟩ => by show (j 1).val = if (128 : Nat) = 1 then 0 else (j 1).val; rw [if_neg (by decide)])

/-- A bias vector of 10 classes made a one-row matrix is the specification's `row10`. -/
theorem bcast_row10 (b : FVec Ideal S10 .f32) :
    broadcastInDim S1x10 ![1] bcast_S10_S1x10_1 b = Cert.Gcn.row10 b :=
  funext fun j => broadcastInDim_apply _ bcast_S10_S1x10_1 b j (ix1 ⟨(j 1).val, (j 1).isLt⟩) (fun a => match a with
    | ⟨0, _⟩ => by show (j 1).val = if (10 : Nat) = 1 then 0 else (j 1).val; rw [if_neg (by decide)])

/-- The one-row bias repeated down the 50000 nodes reads, at node `r` and channel `e`, the row's entry `e`. -/
theorem rowsNodes_apply (y : FVec Ideal S1x128 .f32) (r : Fin 50000) (e : Fin 128) :
    broadcastInDim S50000x128 ![0, 1] bcast_S1x128_S50000x128_0_1 y (ix2 r e) = y (ix2 (0 : Fin 1) e) :=
  broadcastInDim_apply _ bcast_S1x128_S50000x128_0_1 y (ix2 r e) (ix2 (0 : Fin 1) e) (fun a => match a with
    | ⟨0, _⟩ => by show 0 = if (1 : Nat) = 1 then 0 else r.val; rw [if_pos rfl]
    | ⟨1, _⟩ => by show e.val = if (128 : Nat) = 1 then 0 else e.val; rw [if_neg (by decide)])

/-- The one-row bias repeated down the 128 graphs, at graph `r` and hidden unit `k`. -/
theorem rowsHidden_apply (y : FVec Ideal S1x128 .f32) (r k : Fin 128) :
    broadcastInDim S128x128 ![0, 1] bcast_S1x128_S128x128_0_1 y (ix2 r k) = y (ix2 (0 : Fin 1) k) :=
  broadcastInDim_apply _ bcast_S1x128_S128x128_0_1 y (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])

/-- The one-row output bias repeated down the 128 graphs, at graph `r` and class `e`. -/
theorem rowsOut_apply (y : FVec Ideal S1x10 .f32) (r : Fin 128) (e : Fin 10) :
    broadcastInDim S128x10 ![0, 1] bcast_S1x10_S128x10_0_1 y (ix2 r e) = y (ix2 (0 : Fin 1) e) :=
  broadcastInDim_apply _ bcast_S1x10_S128x10_0_1 y (ix2 r e) (ix2 (0 : Fin 1) e) (fun a => match a with
    | ⟨0, _⟩ => by show 0 = if (1 : Nat) = 1 then 0 else r.val; rw [if_pos rfl]
    | ⟨1, _⟩ => by show e.val = if (10 : Nat) = 1 then 0 else e.val; rw [if_neg (by decide)])

/-- The broadcast zero scalar reads the zero word at every node and channel … -/
theorem zeroNodes_apply (i : S50000x128.Idx) :
    broadcastInDim S50000x128 ![] bcast_S_S50000x128 (constant (F := Ideal) S_ .f32 0x00000000#32) i
      = Ideal.ofBits .f32 0x00000000#32 := rfl

/-- … and at every graph and hidden unit. -/
theorem zeroHidden_apply (i : S128x128.Idx) :
    broadcastInDim S128x128 ![] bcast_S_S128x128 (constant (F := Ideal) S_ .f32 0x00000000#32) i
      = Ideal.ofBits .f32 0x00000000#32 := rfl

/-! ## One layer -/

/-- The reference's layer term is the specification's `layer`: entry by entry the two differ by the order in which
    the bias and the second product are added. -/
theorem refLayer_eq (agg x : FVec Ideal S50000x128 .f32) (wrel wroot : FVec Ideal S128x128 .f32) (b : FVec Ideal S128 .f32) :
    maximumf (addf (addf (Host.dotGeneral (F := Ideal) dot_S50000x128_S128x128_S50000x128_1_0_0_1_n_n none agg wrel)
          (broadcastInDim S50000x128 ![0, 1] bcast_S1x128_S50000x128_0_1 (broadcastInDim S1x128 ![1] bcast_S128_S1x128_1 b)))
        (Host.dotGeneral (F := Ideal) dot_S50000x128_S128x128_S50000x128_1_0_0_1_n_n none x wroot))
      (broadcastInDim S50000x128 ![] bcast_S_S50000x128 (constant (F := Ideal) S_ .f32 0x00000000#32))
    = Cert.Gcn.layer agg x wrel wroot (Cert.Gcn.row128 b) := by
  funext i
  obtain ⟨r, e, rfl⟩ : ∃ (r : Fin 50000) (e : Fin 128), i = ix2 r e := ⟨i 0, i 1, eq_ix2 i⟩
  rw [Cert.Gcn.layer_apply, maximumf_apply, addf_apply, addf_apply, layerDot_apply, layerDot_apply, rowsNodes_apply,
    bcast_row128, zeroNodes_apply]
  unfold Cert.Gcn.layerAt
  rw [add_right_comm]

/-! ## The classifier head -/

/-- The reference's hidden layer at graph `r`, hidden unit `k`, is the specification's `hiddenAt`. -/
theorem refHidden_apply (emb w1 : FVec Ideal S128x128 .f32) (b1 : FVec Ideal S128 .f32) (r k : Fin 128) :
    maximumf (addf (Host.dotGeneral (F := Ideal) dot_S128x128_S128x128_S128x128_1_0_0_1_n_n none emb w1)
          (broadcastInDim S128x128 ![0, 1] bcast_S1x128_S128x128_0_1 (broadcastInDim S1x128 ![1] bcast_S128_S1x128_1 b1)))
        (broadcastInDim S128x128 ![] bcast_S_S128x128 (constant (F := Ideal) S_ .f32 0x00000000#32)) (ix2 r k)
      = Cert.Gcn.hiddenAt emb w1 (Cert.Gcn.row128 b1) r k := by
  rw [maximumf_apply, addf_apply, hiddenDot_apply, rowsHidden_apply, bcast_row128, zeroHidden_apply]
  rfl

/-- The reference's head term is the specification's `mlp`. -/
theorem refMlp_eq (emb w1 : FVec Ideal S128x128 .f32) (b1 : FVec Ideal S128 .f32) (w2 : FVec Ideal S128x10 .f32) (b2 : FVec Ideal S10 .f32) :
    addf (Host.dotGeneral (F := Ideal) dot_S128x128_S128x10_S128x10_1_0_0_1_n_n none
          (maximumf (addf (Host.dotGeneral (F := Ideal) dot_S128x128_S128x128_S128x128_1_0_0_1_n_n none emb w1)
                (broadcastInDim S128x128 ![0, 1] bcast_S1x128_S128x128_0_1 (broadcastInDim S1x128 ![1] bcast_S128_S1x128_1 b1)))
              (broadcastInDim S128x128 ![] bcast_S_S128x128 (constant (F := Ideal) S_ .f32 0x00000000#32))) w2)
        (broadcastInDim S128x10 ![0, 1] bcast_S1x10_S128x10_0_1 (broadcastInDim S1x10 ![1] bcast_S10_S1x10_1 b2))
    = Cert.Gcn.mlp emb w1 (Cert.Gcn.row128 b1) w2 (Cert.Gcn.row10 b2) := by
  funext i
  obtain ⟨r, e, rfl⟩ : ∃ (r : Fin 128) (e : Fin 10), i = ix2 r e := ⟨i 0, i 1, eq_ix2 i⟩
  rw [Cert.Gcn.mlp_apply, addf_apply, outDot_apply, rowsOut_apply, bcast_row10]
  unfold Cert.Gcn.mlpAt
  refine congrArg (· + Cert.Gcn.row10 b2 (ix2 (0 : Fin 1) e)) (Finset.sum_congr rfl fun k _ => ?_)
  rw [refHidden_apply]

end Cert.ReferenceIdeal.Bridge

end
-- ==== Proof.RefValue.lean ====
/-
  The reference program's two results as the network's function of the arguments.

  Each of the reference's three layer terms, (agg · wrel + bias) + x · wroot under a maximum with zero, is the
  specification's layer function, whose sum is grouped (agg · wrel + x · wroot) + bias: on the extended reals addition is
  commutative and associative, so the two groupings agree at every index; the reference's classifier head is the
  specification's head. Composed from the inside out, the reference's two results are the same network function as the
  kernel program's, over the reference's own spelling of the host gather, scale and scatter-add.
-/
import proofs.«172957_j77661598646383_1_alg».proof.Proof.RefChain
import proofs.«172957_j77661598646383_1_alg».proof.Proof.RefLayers
import proofs.«172957_j77661598646383_1_alg».proof.Proof.Spec

set_option maxRecDepth 16384

noncomputable section

namespace Cert.ReferenceIdeal.Net

open Cert.ReferenceIdeal Cert.ReferenceIdeal.Gen Cert.ReferenceIdeal.Value Cert.ReferenceIdeal.Chain
open Idealize.ShloMosaic Idealize.ShloMosaic.TcCoe Idealize.SL.Sem Idealize.ShloMosaic.StableHlo

variable (m : (ℓ : Loc nD τ sig) → Buf (Elt Ideal) ℓ)

/-- The node features after the first layer, as a function of the launch contents. -/
def h1 (c : Dev nD) : FVec Ideal S50000x128 .f32 :=
  Cert.Gcn.layer (aggOf (m ((c.tc : Thread nD τ).loc main_arg0)) (srcIdx (m ((c.tc : Thread nD τ).loc main_arg1))) (dstIdx (m ((c.tc : Thread nD τ).loc main_arg1))) (m ((c.tc : Thread nD τ).loc main_arg3))) (m ((c.tc : Thread nD τ).loc main_arg0)) (m ((c.tc : Thread nD τ).loc main_arg4)) (m ((c.tc : Thread nD τ).loc main_arg5)) (Cert.Gcn.row128 (m ((c.tc : Thread nD τ).loc main_arg6)))
/-- After the second layer. -/
def h2 (c : Dev nD) : FVec Ideal S50000x128 .f32 :=
  Cert.Gcn.layer (aggOf (h1 m c) (srcIdx (m ((c.tc : Thread nD τ).loc main_arg1))) (dstIdx (m ((c.tc : Thread nD τ).loc main_arg1))) (m ((c.tc : Thread nD τ).loc main_arg3))) (h1 m c) (m ((c.tc : Thread nD τ).loc main_arg7)) (m ((c.tc : Thread nD τ).loc main_arg8)) (Cert.Gcn.row128 (m ((c.tc : Thread nD τ).loc main_arg9)))
/-- After the third layer. -/
def h3 (c : Dev nD) : FVec Ideal S50000x128 .f32 :=
  Cert.Gcn.layer (aggOf (h2 m c) (srcIdx (m ((c.tc : Thread nD τ).loc main_arg1))) (dstIdx (m ((c.tc : Thread nD τ).loc main_arg1))) (m ((c.tc : Thread nD τ).loc main_arg3))) (h2 m c) (m ((c.tc : Thread nD τ).loc main_arg10)) (m ((c.tc : Thread nD τ).loc main_arg11)) (Cert.Gcn.row128 (m ((c.tc : Thread nD τ).loc main_arg12)))
/-- The pooled embedding. -/
def embedding (c : Dev nD) : FVec Ideal S128x128 .f32 := poolOf (h3 m c) (m ((c.tc : Thread nD τ).loc main_arg2))
/-- The logits. -/
def logits (c : Dev nD) : FVec Ideal S128x10 .f32 :=
  Cert.Gcn.mlp (embedding m c) (m ((c.tc : Thread nD τ).loc main_arg13)) (Cert.Gcn.row128 (m ((c.tc : Thread nD τ).loc main_arg14))) (m ((c.tc : Thread nD τ).loc main_arg15)) (Cert.Gcn.row10 (m ((c.tc : Thread nD τ).loc main_arg16)))

theorem chain_h1 (c : Dev nD) : Chain.h1 m c = h1 m c := by
  unfold Chain.h1 Chain.layerTerm h1
  exact Cert.ReferenceIdeal.Bridge.refLayer_eq _ _ _ _ _

theorem chain_h2 (c : Dev nD) : Chain.h2 m c = h2 m c := by
  unfold Chain.h2 Chain.layerTerm h2
  rw [chain_h1 m c]
  exact Cert.ReferenceIdeal.Bridge.refLayer_eq _ _ _ _ _

theorem chain_h3 (c : Dev nD) : Chain.h3 m c = h3 m c := by
  unfold Chain.h3 Chain.layerTerm h3
  rw [chain_h2 m c]
  exact Cert.ReferenceIdeal.Bridge.refLayer_eq _ _ _ _ _

theorem res_embedding (c : Dev nD) : res_main_v66 (F := Ideal) m c = embedding m c := by
  rw [Chain.res_embedding m c, chain_h3 m c]
  rfl

theorem res_logits (c : Dev nD) : res_main_v75 (F := Ideal) m c = logits m c := by
  rw [Chain.res_logits m c, chain_h3 m c]
  unfold Chain.mlpTerm logits embedding
  exact Cert.ReferenceIdeal.Bridge.refMlp_eq _ _ _ _ _

/-- The reference program's run: it terminates, the logits and the embedding are the network's functions of the arguments,
    and the arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v75) = logits m c
      ∧ r.2.mem ((c.tc : Thread nD τ).loc main_v66) = embedding m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (res_logits m c), (h c).2.1.trans (res_embedding m c), (h c).2.2⟩)
    (Cert.ReferenceIdeal.Value.run (F := Ideal) m ρ)

end Cert.ReferenceIdeal.Net

end
-- ==== Proof.lean ====
/-
  The certificate: a three-layer graph convolution network (gather, scale and scatter-add along the edges on the host; per
  layer a fused "aggregated messages times one matrix plus node features times another plus bias, then the maximum with zero"
  in a kernel over blocks of 5000 nodes; a per-graph sum; a two-layer classifier head in a fourth kernel) against the
  same network written with host matrix products.

  At the ideal values every float is an extended real, a change of float format is the identity and a matrix product into a
  zero accumulator is the exact sum, so each kernel region's output array is the layer function of its input arrays, index by
  index, whatever the row blocks. The reference adds the bias before the second product, the kernel after it; on the extended
  reals addition is commutative and associative, so the two agree with no finiteness assumption. The host operations between
  the layers are the same operations in both programs. So both programs end with the same two arrays: the logits and the
  pooled embedding. The three frame claims are the generated frames (the reference's is its generated run with the results
  dropped); the idealization rewrote nothing, so its claim is trivial.
-/
import proofs.«172957_j77661598646383_1_alg».proof.Defs
import proofs.«172957_j77661598646383_1_alg».proof.Proof.Gen.Kernel
import proofs.«172957_j77661598646383_1_alg».proof.Proof.Gen.KernelIdeal
import proofs.«172957_j77661598646383_1_alg».proof.Proof.Gen.ReferenceIdeal
import proofs.«172957_j77661598646383_1_alg».proof.Proof.Gen.Pre_finite_inputs
import proofs.«172957_j77661598646383_1_alg».proof.Proof.KernelFrameP
import proofs.«172957_j77661598646383_1_alg».proof.Proof.KernelIdealFrameP
import proofs.«172957_j77661598646383_1_alg».proof.Proof.KernelValue
import proofs.«172957_j77661598646383_1_alg».proof.Proof.RefValue
import Idealize.ShloMosaic.Adequacy
import Idealize.ShloMosaic.Init

noncomputable section

namespace Cert.Proof

open Idealize.ShloMosaic Idealize.ShloMosaic.TcCoe Idealize.SL.Sem

/-! ## The two programs' host functions are the same functions -/

theorem src_eq (E) : Cert.ReferenceIdeal.Chain.srcIdx E = Cert.KernelIdeal.Host.srcIdx E := rfl
theorem dst_eq (E) : Cert.ReferenceIdeal.Chain.dstIdx E = Cert.KernelIdeal.Host.dstIdx E := rfl
theorem agg_eq (h i1 i3 w) : Cert.ReferenceIdeal.Chain.aggOf h i1 i3 w = Cert.KernelIdeal.Host.aggOf h i1 i3 w := rfl
theorem pool_eq (h bt) : Cert.ReferenceIdeal.Chain.poolOf h bt = Cert.KernelIdeal.Host.poolOf h bt := rfl

/-! ## From memories that agree on the arguments, the two networks are equal -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
  (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
  (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
  (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
  (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
  (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
  (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
  (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))

include e0 e1 e3 e4 e5 e6 in
theorem h1_eq : Cert.ReferenceIdeal.Net.h1 m' c = Cert.KernelIdeal.Net.h1 m c := by
  unfold Cert.ReferenceIdeal.Net.h1 Cert.KernelIdeal.Net.h1
  rw [e0, e1, e3, e4, e5, e6, agg_eq, src_eq, dst_eq]

include e0 e1 e3 e4 e5 e6 e7 e8 e9 in
theorem h2_eq : Cert.ReferenceIdeal.Net.h2 m' c = Cert.KernelIdeal.Net.h2 m c := by
  unfold Cert.ReferenceIdeal.Net.h2 Cert.KernelIdeal.Net.h2
  rw [h1_eq m m' c e0 e1 e3 e4 e5 e6, e1, e3, e7, e8, e9, agg_eq, src_eq, dst_eq]

include e0 e1 e3 e4 e5 e6 e7 e8 e9 e10 e11 e12 in
theorem h3_eq : Cert.ReferenceIdeal.Net.h3 m' c = Cert.KernelIdeal.Net.h3 m c := by
  unfold Cert.ReferenceIdeal.Net.h3 Cert.KernelIdeal.Net.h3
  rw [h2_eq m m' c e0 e1 e3 e4 e5 e6 e7 e8 e9, e1, e3, e10, e11, e12, agg_eq, src_eq, dst_eq]

include e0 e1 e2 e3 e4 e5 e6 e7 e8 e9 e10 e11 e12 in
theorem embedding_eq : Cert.ReferenceIdeal.Net.embedding m' c = Cert.KernelIdeal.Net.embedding m c := by
  unfold Cert.ReferenceIdeal.Net.embedding Cert.KernelIdeal.Net.embedding
  rw [h3_eq m m' c e0 e1 e3 e4 e5 e6 e7 e8 e9 e10 e11 e12, e2, pool_eq]

include e0 e1 e2 e3 e4 e5 e6 e7 e8 e9 e10 e11 e12 e13 e14 e15 e16 in
theorem logits_eq : Cert.ReferenceIdeal.Net.logits m' c = Cert.KernelIdeal.Net.logits m c := by
  unfold Cert.ReferenceIdeal.Net.logits Cert.KernelIdeal.Net.logits
  rw [embedding_eq m m' c e0 e1 e2 e3 e4 e5 e6 e7 e8 e9 e10 e11 e12, e13, e14, e15, e16]

end Agree

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- Both idealized programs, from memories agreeing on the arguments, end with the logits and the pooled embedding of one
    network function of the arguments. -/
theorem algebraic : Cert.algebraic_KernelIdeal_ReferenceIdeal := by
  intro m ρ m' ρ' _ hagree
  refine ⟨fun c => Cert.KernelIdeal.Net.logits m c, fun c => Cert.KernelIdeal.Net.embedding m c,
    Cert.KernelIdeal.Net.run m ρ, ?_⟩
  refine (θ_run Cert.ReferenceIdeal.defs _ _).mono (fun r h c => ?_) (Cert.ReferenceIdeal.Net.run m' ρ')
  obtain ⟨hl, he, hargs⟩ := h c
  obtain ⟨e0, e1, e2, e3, e4, e5, e6, e7, e8, e9, e10, e11, e12, e13, e14, e15, e16⟩ := hagree c
  exact ⟨hl.trans (logits_eq m m' c e0 e1 e2 e3 e4 e5 e6 e7 e8 e9 e10 e11 e12 e13 e14 e15 e16),
    he.trans (embedding_eq m m' c e0 e1 e2 e3 e4 e5 e6 e7 e8 e9 e10 e11 e12), hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
